-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x14x14 : Shape := ⟨4, ![64, 2048, 14, 14]⟩
abbrev S_ : Shape := ⟨0, ![]⟩

class Facts : Prop where
  bcast_S_S64x2048x14x14 : S_.BroadcastsInDim S64x2048x14x14 (![] : Fin 0 → Fin S64x2048x14x14.rank)
  reducesTo_S64x2048x14x14_S_d0_1_2_3 : S64x2048x14x14.ReducesTo [0, 1, 2, 3] S_
  h_S_ : 0 < S_.numel

variable [Facts]

def fn {F : FTy → Type} [FloatOps F] (main_arg0 : FVec F S64x2048x14x14 .f32) : IVec S_ 1 :=
  let main_v0 : FVec F S64x2048x14x14 .f32 := Host.absf main_arg0
  let main_cst : FVec F S_ .f32 := constant S_ .f32 0x7F800000#32
  let main_v1 : FVec F S64x2048x14x14 .f32 := broadcastInDim S64x2048x14x14 ![] bcast_S_S64x2048x14x14 main_cst
  let main_v2 : IVec S64x2048x14x14 1 := cmpf .olt main_v0 main_v1
  let main_c : IVec S_ 1 := constantI S_ 1 1#1
  let main_v3 : IVec S_ 1 := (fun x v => Host.reduce IntOp.andi x v reducesTo_S64x2048x14x14_S_d0_1_2_3 h_S_) main_v2 main_c
  main_v3
-- ==== Kernel.lean ====
abbrev S64x2048x14x14 : Shape := ⟨4, ![64, 2048, 14, 14]⟩
abbrev S64x14x2048 : Shape := ⟨3, ![64, 14, 2048]⟩
abbrev S1x2048x14x14 : Shape := ⟨4, ![1, 2048, 14, 14]⟩
abbrev S1x14x2048 : Shape := ⟨3, ![1, 14, 2048]⟩
abbrev S1x128x14x14 : Shape := ⟨4, ![1, 128, 14, 14]⟩
abbrev S1x128x13x13 : Shape := ⟨4, ![1, 128, 13, 13]⟩
abbrev S1x128x13 : Shape := ⟨3, ![1, 128, 13]⟩
abbrev S1x128 : Shape := ⟨2, ![1, 128]⟩
abbrev S1x1x128 : Shape := ⟨3, ![1, 1, 128]⟩
abbrev S1x128x8x8 : Shape := ⟨4, ![1, 128, 8, 8]⟩
abbrev S1x128x8 : Shape := ⟨3, ![1, 128, 8]⟩
abbrev S1x128x6x6 : Shape := ⟨4, ![1, 128, 6, 6]⟩
abbrev S1x128x6 : Shape := ⟨3, ![1, 128, 6]⟩
abbrev S_ : Shape := ⟨0, ![]⟩
abbrev S64x14 : Shape := ⟨2, ![64, 14]⟩
abbrev S64x14x1 : Shape := ⟨3, ![64, 14, 1]⟩
abbrev S64x2048 : Shape := ⟨2, ![64, 2048]⟩

abbrev nBuf : Space → Nat
  | .hbm => 11
  | .vmem => 4
  | .smem => 0
  | _ => 0

abbrev bufTy : (tb : Table) → Fin (tcTables nBuf tb) → BufTy
  | .hbm, ⟨0, _⟩ => ⟨S64x2048x14x14, .f32⟩
  | .hbm, ⟨1, _⟩ => ⟨S64x14x2048, .f32⟩
  | .hbm, ⟨2, _⟩ => ⟨S64x14x2048, .f32⟩
  | .hbm, ⟨3, _⟩ => ⟨S_, .f32⟩
  | .hbm, ⟨4, _⟩ => ⟨S64x14, .f32⟩
  | .hbm, ⟨5, _⟩ => ⟨S64x14x1, .f32⟩
  | .hbm, ⟨6, _⟩ => ⟨S64x14x1, .f32⟩
  | .hbm, ⟨7, _⟩ => ⟨S64x14x2048, .f32⟩
  | .hbm, ⟨8, _⟩ => ⟨S64x14x2048, .f32⟩
  | .hbm, ⟨9, _⟩ => ⟨S_, .f32⟩
  | .hbm, ⟨10, _⟩ => ⟨S64x2048, .f32⟩
  | .local _ .vmem, ⟨0, _⟩ => ⟨S1x2048x14x14, .f32⟩
  | .local _ .vmem, ⟨1, _⟩ => ⟨S1x2048x14x14, .f32⟩
  | .local _ .vmem, ⟨2, _⟩ => ⟨S1x14x2048, .f32⟩
  | .local _ .vmem, ⟨3, _⟩ => ⟨S1x14x2048, .f32⟩
  | _, _ => ⟨S64x2048x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  v3
def k0_off1 (k0_t1 : Fin k0_t1_loop.trips) : Fin 4 → Nat :=
  let c0 : Index := 0#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v5 : Index := Scalar.indexCast v4
  let c0_3 : Index := 0#32
  let c0_4 : Index := 0#32
  ![0, v5.toNat, 0, 0]
def k0_off2 (k0_t1 : Fin k0_t1_loop.trips) : Fin 3 → Nat :=
  let c0_6 : Index := 0#32
  let c0_7 : Index := 0#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v10 : Index := Scalar.indexCast v4
  ![0, 0, v10.toNat]
def k0_off3 (k0_t1 : Fin k0_t1_loop.trips) : Fin 3 → Nat :=
  let c0_10 : Index := 0#32
  let c1 : Index := 1#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v17 : Index := Scalar.indexCast v4
  ![0, 1, v17.toNat]
def k0_off4 (k0_t1 : Fin k0_t1_loop.trips) : Fin 3 → Nat :=
  let c0_13 : Index := 0#32
  let c2 : Index := 2#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v24 : Index := Scalar.indexCast v4
  ![0, 2, v24.toNat]
def k0_off5 (k0_t1 : Fin k0_t1_loop.trips) : Fin 3 → Nat :=
  let c0_16 : Index := 0#32
  let c3 : Index := 3#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v31 : Index := Scalar.indexCast v4
  ![0, 3, v31.toNat]
def k0_off6 (k0_t1 : Fin k0_t1_loop.trips) : Fin 3 → Nat :=
  let c0_19 : Index := 0#32
  let c4 : Index := 4#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v38 : Index := Scalar.indexCast v4
  ![0, 4, v38.toNat]
def k0_off7 (k0_t1 : Fin k0_t1_loop.trips) : Fin 3 → Nat :=
  let c0_22 : Index := 0#32
  let c5 : Index := 5#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v45 : Index := Scalar.indexCast v4
  ![0, 5, v45.toNat]
def k0_off8 (k0_t1 : Fin k0_t1_loop.trips) : Fin 3 → Nat :=
  let c0_25 : Index := 0#32
  let c6 : Index := 6#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v52 : Index := Scalar.indexCast v4
  ![0, 6, v52.toNat]
def k0_off9 (k0_t1 : Fin k0_t1_loop.trips) : Fin 3 → Nat :=
  let c0_28 : Index := 0#32
  let c7 : Index := 7#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v59 : Index := Scalar.indexCast v4
  ![0, 7, v59.toNat]
def k0_off10 (k0_t1 : Fin k0_t1_loop.trips) : Fin 3 → Nat :=
  let c0_31 : Index := 0#32
  let c8 : Index := 8#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v66 : Index := Scalar.indexCast v4
  ![0, 8, v66.toNat]
def k0_off11 (k0_t1 : Fin k0_t1_loop.trips) : Fin 3 → Nat :=
  let c0_34 : Index := 0#32
  let c9 : Index := 9#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v73 : Index := Scalar.indexCast v4
  ![0, 9, v73.toNat]
def k0_off12 (k0_t1 : Fin k0_t1_loop.trips) : Fin 3 → Nat :=
  let c0_37 : Index := 0#32
  let c10 : Index := 10#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v80 : Index := Scalar.indexCast v4
  ![0, 10, v80.toNat]
def k0_off13 (k0_t1 : Fin k0_t1_loop.trips) : Fin 3 → Nat :=
  let c0_40 : Index := 0#32
  let c11 : Index := 11#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v87 : Index := Scalar.indexCast v4
  ![0, 11, v87.toNat]
def k0_off14 (k0_t1 : Fin k0_t1_loop.trips) : Fin 3 → Nat :=
  let c0_43 : Index := 0#32
  let c12 : Index := 12#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v94 : Index := Scalar.indexCast v4
  ![0, 12, v94.toNat]
def k0_off15 (k0_t1 : Fin k0_t1_loop.trips) : Fin 3 → Nat :=
  let c0_46 : Index := 0#32
  let c13 : Index := 13#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v101 : Index := Scalar.indexCast v4
  ![0, 13, v101.toNat]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x14x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x14x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S1x128x14x14 : 0 < S1x128x14x14.numel
  slices_S1x128x14x14_o0_0_0_0_S1x128x13x13 : S1x128x14x14.Slices ![0, 0, 0, 0] S1x128x13x13
  reduces_S1x128x13x13_S1x128x13 : S1x128x13x13.Reduces [3] S1x128x13
  reduces_S1x128x13_S1x128 : S1x128x13.Reduces [2] S1x128
  h_S1x1x128 : 0 < S1x1x128.numel
  shapeCasts_S1x1x128_S1x128 : S1x1x128.ShapeCasts S1x128
  shapeCasts_S1x128_S1x1x128 : S1x128.ShapeCasts S1x1x128
  slices_S1x128x14x14_o0_0_0_0_S1x128x8x8 : S1x128x14x14.Slices ![0, 0, 0, 0] S1x128x8x8
  reduces_S1x128x8x8_S1x128x8 : S1x128x8x8.Reduces [3] S1x128x8
  reduces_S1x128x8_S1x128 : S1x128x8.Reduces [2] S1x128
  slices_S1x128x14x14_o0_0_0_2_S1x128x8x8 : S1x128x14x14.Slices ![0, 0, 0, 2] S1x128x8x8
  slices_S1x128x14x14_o0_0_2_0_S1x128x8x8 : S1x128x14x14.Slices ![0, 0, 2, 0] S1x128x8x8
  slices_S1x128x14x14_o0_0_2_2_S1x128x8x8 : S1x128x14x14.Slices ![0, 0, 2, 2] S1x128x8x8
  slices_S1x128x14x14_o0_0_0_0_S1x128x6x6 : S1x128x14x14.Slices ![0, 0, 0, 0] S1x128x6x6
  reduces_S1x128x6x6_S1x128x6 : S1x128x6x6.Reduces [3] S1x128x6
  reduces_S1x128x6_S1x128 : S1x128x6.Reduces [2] S1x128
  slices_S1x128x14x14_o0_0_0_2_S1x128x6x6 : S1x128x14x14.Slices ![0, 0, 0, 2] S1x128x6x6
  slices_S1x128x14x14_o0_0_0_4_S1x128x6x6 : S1x128x14x14.Slices ![0, 0, 0, 4] S1x128x6x6
  slices_S1x128x14x14_o0_0_2_0_S1x128x6x6 : S1x128x14x14.Slices ![0, 0, 2, 0] S1x128x6x6
  slices_S1x128x14x14_o0_0_2_2_S1x128x6x6 : S1x128x14x14.Slices ![0, 0, 2, 2] S1x128x6x6
  slices_S1x128x14x14_o0_0_2_4_S1x128x6x6 : S1x128x14x14.Slices ![0, 0, 2, 4] S1x128x6x6
  slices_S1x128x14x14_o0_0_4_0_S1x128x6x6 : S1x128x14x14.Slices ![0, 0, 4, 0] S1x128x6x6
  slices_S1x128x14x14_o0_0_4_2_S1x128x6x6 : S1x128x14x14.Slices ![0, 0, 4, 2] S1x128x6x6
  slices_S1x128x14x14_o0_0_4_4_S1x128x6x6 : S1x128x14x14.Slices ![0, 0, 4, 4] S1x128x6x6
  reducesTo_S64x14x2048_S64x14_d2 : S64x14x2048.ReducesTo [2] S64x14
  h_S_ : 0 < S_.numel
  bcast_S64x14_S64x14x1_0_1 : S64x14.BroadcastsInDim S64x14x1 (![0, 1] : Fin 2 → Fin S64x14x1.rank)
  bcast_S64x14x1_S64x14x2048_0_1_2 : S64x14x1.BroadcastsInDim S64x14x2048 (![0, 1, 2] : Fin 3 → Fin S64x14x2048.rank)
  reducesTo_S64x14x2048_S64x2048_d1 : S64x14x2048.ReducesTo [1] S64x2048
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x128x14x14.size a ≤ S1x2048x14x14.size a
  k0_off2_inb : ∀ k0_t1 : Fin k0_t1_loop.trips, ∀ a, (k0_off2 k0_t1) a + S1x1x128.size a ≤ S1x14x2048.size a
  k0_off3_inb : ∀ k0_t1 : Fin k0_t1_loop.trips, ∀ a, (k0_off3 k0_t1) a + S1x1x128.size a ≤ S1x14x2048.size a
  k0_off4_inb : ∀ k0_t1 : Fin k0_t1_loop.trips, ∀ a, (k0_off4 k0_t1) a + S1x1x128.size a ≤ S1x14x2048.size a
  k0_off5_inb : ∀ k0_t1 : Fin k0_t1_loop.trips, ∀ a, (k0_off5 k0_t1) a + S1x1x128.size a ≤ S1x14x2048.size a
  k0_off6_inb : ∀ k0_t1 : Fin k0_t1_loop.trips, ∀ a, (k0_off6 k0_t1) a + S1x1x128.size a ≤ S1x14x2048.size a
  k0_off7_inb : ∀ k0_t1 : Fin k0_t1_loop.trips, ∀ a, (k0_off7 k0_t1) a + S1x1x128.size a ≤ S1x14x2048.size a
  k0_off8_inb : ∀ k0_t1 : Fin k0_t1_loop.trips, ∀ a, (k0_off8 k0_t1) a + S1x1x128.size a ≤ S1x14x2048.size a
  k0_off9_inb : ∀ k0_t1 : Fin k0_t1_loop.trips, ∀ a, (k0_off9 k0_t1) a + S1x1x128.size a ≤ S1x14x2048.size a
  k0_off10_inb : ∀ k0_t1 : Fin k0_t1_loop.trips, ∀ a, (k0_off10 k0_t1) a + S1x1x128.size a ≤ S1x14x2048.size a
  k0_off11_inb : ∀ k0_t1 : Fin k0_t1_loop.trips, ∀ a, (k0_off11 k0_t1) a + S1x1x128.size a ≤ S1x14x2048.size a
  k0_off12_inb : ∀ k0_t1 : Fin k0_t1_loop.trips, ∀ a, (k0_off12 k0_t1) a + S1x1x128.size a ≤ S1x14x2048.size a
  k0_off13_inb : ∀ k0_t1 : Fin k0_t1_loop.trips, ∀ a, (k0_off13 k0_t1) a + S1x1x128.size a ≤ S1x14x2048.size a
  k0_off14_inb : ∀ k0_t1 : Fin k0_t1_loop.trips, ∀ a, (k0_off14 k0_t1) a + S1x1x128.size a ≤ S1x14x2048.size a
  k0_off15_inb : ∀ k0_t1 : Fin k0_t1_loop.trips, ∀ a, (k0_off15 k0_t1) a + S1x1x128.size a ≤ S1x14x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x14x14.size a ≤ S64x2048x14x14.size a
  hwx0_0 : ∀ i : grid0.Coords, EltTy.bits .f32 = 32 ∨ (Rect.block (s := S64x2048x14x14) S1x2048x14x14.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x14x2048.size a ≤ S64x14x2048.size a
  hwx0_1 : ∀ i : grid0.Coords, EltTy.bits .f32 = 32 ∨ (Rect.block (s := S64x14x2048) S1x14x2048.size (cc0_transform_1 i) (hinb0_1 i)).WholeWords (EltTy.packing .f32)

variable [Facts₀]

abbrev win0_0 : Pipeline.Window sig grid0 :=
  Pipeline.Window.ofSpec (Memref.whole main_arg0) S1x2048x14x14.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x14x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2048x14x14 : Shape := ⟨4, ![64, 2048, 14, 14]⟩
abbrev S64x2048x13x13 : Shape := ⟨4, ![64, 2048, 13, 13]⟩
abbrev S_ : Shape := ⟨0, ![]⟩
abbrev S64x2048 : Shape := ⟨2, ![64, 2048]⟩
abbrev S64 : Shape := ⟨1, ![64]⟩
abbrev S64x1 : Shape := ⟨2, ![64, 1]⟩
abbrev S64x2048x8x8 : Shape := ⟨4, ![64, 2048, 8, 8]⟩
abbrev S64x2048x6x6 : Shape := ⟨4, ![64, 2048, 6, 6]⟩

abbrev nBuf : Space → Nat
  | .hbm => 154
  | .vmem => 0
  | .smem => 0
  | _ => 0

abbrev hbmTy0_0 (i : Nat) : BufTy := match i % 128 with
  | 0 => ⟨S64x2048x14x14, .f32⟩
  | 1 => ⟨S64x2048x13x13, .f32⟩
  | 2 => ⟨S_, .f32⟩
  | 3 => ⟨S64x2048, .f32⟩
  | 4 => ⟨S64x2048, .f32⟩
  | 5 => ⟨S_, .f32⟩
  | 6 => ⟨S64, .f32⟩
  | 7 => ⟨S64x1, .f32⟩
  | 8 => ⟨S64x1, .f32⟩
  | 9 => ⟨S64x2048, .f32⟩
  | 10 => ⟨S64x2048, .f32⟩
  | 11 => ⟨S64x2048x8x8, .f32⟩
  | 12 => ⟨S_, .f32⟩
  | 13 => ⟨S64x2048, .f32⟩
  | 14 => ⟨S64x2048, .f32⟩
  | 15 => ⟨S_, .f32⟩
  | 16 => ⟨S64, .f32⟩
  | 17 => ⟨S64x1, .f32⟩
  | 18 => ⟨S64x1, .f32⟩
  | 19 => ⟨S64x2048, .f32⟩
  | 20 => ⟨S64x2048, .f32⟩
  | 21 => ⟨S64x2048, .f32⟩
  | 22 => ⟨S64x2048x8x8, .f32⟩
  | 23 => ⟨S_, .f32⟩
  | 24 => ⟨S64x2048, .f32⟩
  | 25 => ⟨S64x2048, .f32⟩
  | 26 => ⟨S_, .f32⟩
  | 27 => ⟨S64, .f32⟩
  | 28 => ⟨S64x1, .f32⟩
  | 29 => ⟨S64x1, .f32⟩
  | 30 => ⟨S64x2048, .f32⟩
  | 31 => ⟨S64x2048, .f32⟩
  | 32 => ⟨S64x2048, .f32⟩
  | 33 => ⟨S64x2048x8x8, .f32⟩
  | 34 => ⟨S_, .f32⟩
  | 35 => ⟨S64x2048, .f32⟩
  | 36 => ⟨S64x2048, .f32⟩
  | 37 => ⟨S_, .f32⟩
  | 38 => ⟨S64, .f32⟩
  | 39 => ⟨S64x1, .f32⟩
  | 40 => ⟨S64x1, .f32⟩
  | 41 => ⟨S64x2048, .f32⟩
  | 42 => ⟨S64x2048, .f32⟩
  | 43 => ⟨S64x2048, .f32⟩
  | 44 => ⟨S64x2048x8x8, .f32⟩
  | 45 => ⟨S_, .f32⟩
  | 46 => ⟨S64x2048, .f32⟩
  | 47 => ⟨S64x2048, .f32⟩
  | 48 => ⟨S_, .f32⟩
  | 49 => ⟨S64, .f32⟩
  | 50 => ⟨S64x1, .f32⟩
  | 51 => ⟨S64x1, .f32⟩
  | 52 => ⟨S64x2048, .f32⟩
  | 53 => ⟨S64x2048, .f32⟩
  | 54 => ⟨S64x2048, .f32⟩
  | 55 => ⟨S64x2048x6x6, .f32⟩
  | 56 => ⟨S_, .f32⟩
  | 57 => ⟨S64x2048, .f32⟩
  | 58 => ⟨S64x2048, .f32⟩
  | 59 => ⟨S_, .f32⟩
  | 60 => ⟨S64, .f32⟩
  | 61 => ⟨S64x1, .f32⟩
  | 62 => ⟨S64x1, .f32⟩
  | 63 => ⟨S64x2048, .f32⟩
  | 64 => ⟨S64x2048, .f32⟩
  | 65 => ⟨S64x2048, .f32⟩
  | 66 => ⟨S64x2048x6x6, .f32⟩
  | 67 => ⟨S_, .f32⟩
  | 68 => ⟨S64x2048, .f32⟩
  | 69 => ⟨S64x2048, .f32⟩
  | 70 => ⟨S_, .f32⟩
  | 71 => ⟨S64, .f32⟩
  | 72 => ⟨S64x1, .f32⟩
  | 73 => ⟨S64x1, .f32⟩
  | 74 => ⟨S64x2048, .f32⟩
  | 75 => ⟨S64x2048, .f32⟩
  | 76 => ⟨S64x2048, .f32⟩
  | 77 => ⟨S64x2048x6x6, .f32⟩
  | 78 => ⟨S_, .f32⟩
  | 79 => ⟨S64x2048, .f32⟩
  | 80 => ⟨S64x2048, .f32⟩
  | 81 => ⟨S_, .f32⟩
  | 82 => ⟨S64, .f32⟩
  | 83 => ⟨S64x1, .f32⟩
  | 84 => ⟨S64x1, .f32⟩
  | 85 => ⟨S64x2048, .f32⟩
  | 86 => ⟨S64x2048, .f32⟩
  | 87 => ⟨S64x2048, .f32⟩
  | 88 => ⟨S64x2048x6x6, .f32⟩
  | 89 => ⟨S_, .f32⟩
  | 90 => ⟨S64x2048, .f32⟩
  | 91 => ⟨S64x2048, .f32⟩
  | 92 => ⟨S_, .f32⟩
  | 93 => ⟨S64, .f32⟩
  | 94 => ⟨S64x1, .f32⟩
  | 95 => ⟨S64x1, .f32⟩
  | 96 => ⟨S64x2048, .f32⟩
  | 97 => ⟨S64x2048, .f32⟩
  | 98 => ⟨S64x2048, .f32⟩
  | 99 => ⟨S64x2048x6x6, .f32⟩
  | 100 => ⟨S_, .f32⟩
  | 101 => ⟨S64x2048, .f32⟩
  | 102 => ⟨S64x2048, .f32⟩
  | 103 => ⟨S_, .f32⟩
  | 104 => ⟨S64, .f32⟩
  | 105 => ⟨S64x1, .f32⟩
  | 106 => ⟨S64x1, .f32⟩
  | 107 => ⟨S64x2048, .f32⟩
  | 108 => ⟨S64x2048, .f32⟩
  | 109 => ⟨S64x2048, .f32⟩
  | 110 => ⟨S64x2048x6x6, .f32⟩
  | 111 => ⟨S_, .f32⟩
  | 112 => ⟨S64x2048, .f32⟩
  | 113 => ⟨S64x2048, .f32⟩
  | 114 => ⟨S_, .f32⟩
  | 115 => ⟨S64, .f32⟩
  | 116 => ⟨S64x1, .f32⟩
  | 117 => ⟨S64x1, .f32⟩
  | 118 => ⟨S64x2048, .f32⟩
  | 119 => ⟨S64x2048, .f32⟩
  | 120 => ⟨S64x2048, .f32⟩
  | 121 => ⟨S64x2048x6x6, .f32⟩
  | 122 => ⟨S_, .f32⟩
  | 123 => ⟨S64x2048, .f32⟩
  | 124 => ⟨S64x2048, .f32⟩
  | 125 => ⟨S_, .f32⟩
  | 126 => ⟨S64, .f32⟩
  | 127 => ⟨S64x1, .f32⟩
  | _ => ⟨S64x2048x14x14, .f32⟩

abbrev hbmTy0_1 (i : Nat) : BufTy := match i % 128 with
  | 0 => ⟨S64x1, .f32⟩
  | 1 => ⟨S64x2048, .f32⟩
  | 2 => ⟨S64x2048, .f32⟩
  | 3 => ⟨S64x2048, .f32⟩
  | 4 => ⟨S64x2048x6x6, .f32⟩
  | 5 => ⟨S_, .f32⟩
  | 6 => ⟨S64x2048, .f32⟩
  | 7 => ⟨S64x2048, .f32⟩
  | 8 => ⟨S_, .f32⟩
  | 9 => ⟨S64, .f32⟩
  | 10 => ⟨S64x1, .f32⟩
  | 11 => ⟨S64x1, .f32⟩
  | 12 => ⟨S64x2048, .f32⟩
  | 13 => ⟨S64x2048, .f32⟩
  | 14 => ⟨S64x2048, .f32⟩
  | 15 => ⟨S64x2048x6x6, .f32⟩
  | 16 => ⟨S_, .f32⟩
  | 17 => ⟨S64x2048, .f32⟩
  | 18 => ⟨S64x2048, .f32⟩
  | 19 => ⟨S_, .f32⟩
  | 20 => ⟨S64, .f32⟩
  | 21 => ⟨S64x1, .f32⟩
  | 22 => ⟨S64x1, .f32⟩
  | 23 => ⟨S64x2048, .f32⟩
  | 24 => ⟨S64x2048, .f32⟩
  | 25 => ⟨S64x2048, .f32⟩
  | _ => ⟨S64x2048x14x14, .f32⟩

abbrev hbmTy (i : Nat) : BufTy := match i / 128 with
  | 0 => hbmTy0_0 i
  | 1 => hbmTy0_1 i
  | _ => ⟨S64x2048x14x14, .f32⟩

abbrev bufTy : (tb : Table) → Fin (tcTables nBuf tb) → BufTy
  | .hbm, ⟨i, _⟩ => hbmTy i
  | _, _ => ⟨S64x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_call2_v0 : Ref sig .tc := ⟨.hbm, 25, rfl⟩
abbrev main_call2_cst : Ref sig .tc := ⟨.hbm, 26, rfl⟩
abbrev main_call2_v1 : Ref sig .tc := ⟨.hbm, 27, rfl⟩
abbrev main_call2_v2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_call3_v0 : Ref sig .tc := ⟨.hbm, 36, rfl⟩
abbrev main_call3_cst : Ref sig .tc := ⟨.hbm, 37, rfl⟩
abbrev main_call3_v1 : Ref sig .tc := ⟨.hbm, 38, rfl⟩
abbrev main_call3_v2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_call4_v0 : Ref sig .tc := ⟨.hbm, 47, rfl⟩
abbrev main_call4_cst : Ref sig .tc := ⟨.hbm, 48, rfl⟩
abbrev main_call4_v1 : Ref sig .tc := ⟨.hbm, 49, rfl⟩
abbrev main_call4_v2 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_4 : Ref sig .tc := ⟨.hbm, 56, rfl⟩
abbrev main_v30 : Ref sig .tc := ⟨.hbm, 57, rfl⟩
abbrev main_call5_v0 : Ref sig .tc := ⟨.hbm, 58, rfl⟩
abbrev main_call5_cst : Ref sig .tc := ⟨.hbm, 59, rfl⟩
abbrev main_call5_v1 : Ref sig .tc := ⟨.hbm, 60, rfl⟩
abbrev main_call5_v2 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_call6_v0 : Ref sig .tc := ⟨.hbm, 69, rfl⟩
abbrev main_call6_cst : Ref sig .tc := ⟨.hbm, 70, rfl⟩
abbrev main_call6_v1 : Ref sig .tc := ⟨.hbm, 71, rfl⟩
abbrev main_call6_v2 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_6 : Ref sig .tc := ⟨.hbm, 78, rfl⟩
abbrev main_v42 : Ref sig .tc := ⟨.hbm, 79, rfl⟩
abbrev main_call7_v0 : Ref sig .tc := ⟨.hbm, 80, rfl⟩
abbrev main_call7_cst : Ref sig .tc := ⟨.hbm, 81, rfl⟩
abbrev main_call7_v1 : Ref sig .tc := ⟨.hbm, 82, rfl⟩
abbrev main_call7_v2 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_7 : Ref sig .tc := ⟨.hbm, 89, rfl⟩
abbrev main_v48 : Ref sig .tc := ⟨.hbm, 90, rfl⟩
abbrev main_call8_v0 : Ref sig .tc := ⟨.hbm, 91, rfl⟩
abbrev main_call8_cst : Ref sig .tc := ⟨.hbm, 92, rfl⟩
abbrev main_call8_v1 : Ref sig .tc := ⟨.hbm, 93, rfl⟩
abbrev main_call8_v2 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_8 : Ref sig .tc := ⟨.hbm, 100, rfl⟩
abbrev main_v54 : Ref sig .tc := ⟨.hbm, 101, rfl⟩
abbrev main_call9_v0 : Ref sig .tc := ⟨.hbm, 102, rfl⟩
abbrev main_call9_cst : Ref sig .tc := ⟨.hbm, 103, rfl⟩
abbrev main_call9_v1 : Ref sig .tc := ⟨.hbm, 104, rfl⟩
abbrev main_call9_v2 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_9 : Ref sig .tc := ⟨.hbm, 111, rfl⟩
abbrev main_v60 : Ref sig .tc := ⟨.hbm, 112, rfl⟩
abbrev main_call10_v0 : Ref sig .tc := ⟨.hbm, 113, rfl⟩
abbrev main_call10_cst : Ref sig .tc := ⟨.hbm, 114, rfl⟩
abbrev main_call10_v1 : Ref sig .tc := ⟨.hbm, 115, rfl⟩
abbrev main_call10_v2 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_cst_10 : Ref sig .tc := ⟨.hbm, 122, rfl⟩
abbrev main_v66 : Ref sig .tc := ⟨.hbm, 123, rfl⟩
abbrev main_call11_v0 : Ref sig .tc := ⟨.hbm, 124, rfl⟩
abbrev main_call11_cst : Ref sig .tc := ⟨.hbm, 125, rfl⟩
abbrev main_call11_v1 : Ref sig .tc := ⟨.hbm, 126, rfl⟩
abbrev main_call11_v2 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_11 : Ref sig .tc := ⟨.hbm, 133, rfl⟩
abbrev main_v72 : Ref sig .tc := ⟨.hbm, 134, rfl⟩
abbrev main_call12_v0 : Ref sig .tc := ⟨.hbm, 135, rfl⟩
abbrev main_call12_cst : Ref sig .tc := ⟨.hbm, 136, rfl⟩
abbrev main_call12_v1 : Ref sig .tc := ⟨.hbm, 137, rfl⟩
abbrev main_call12_v2 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_12 : Ref sig .tc := ⟨.hbm, 144, rfl⟩
abbrev main_v78 : Ref sig .tc := ⟨.hbm, 145, rfl⟩
abbrev main_call13_v0 : Ref sig .tc := ⟨.hbm, 146, rfl⟩
abbrev main_call13_cst : Ref sig .tc := ⟨.hbm, 147, rfl⟩
abbrev main_call13_v1 : Ref sig .tc := ⟨.hbm, 148, rfl⟩
abbrev main_call13_v2 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩

abbrev nD : Nat := 1
abbrev τ : Topo := Topo.v7x

variable {F : FTy → Type} [FloatOps F]

class Facts₀ : Prop where
  slices_S64x2048x14x14_S64x2048x13x13_0_0_0_0 : S64x2048x14x14.Slices ![0, 0, 0, 0] S64x2048x13x13
  reducesTo_S64x2048x13x13_S64x2048_d2_3 : S64x2048x13x13.ReducesTo [2, 3] S64x2048
  h_S_ : 0 < S_.numel
  reducesTo_S64x2048_S64_d1 : S64x2048.ReducesTo [1] S64
  bcast_S64_S64x1_0 : S64.BroadcastsInDim S64x1 (![0] : Fin 1 → Fin S64x1.rank)
  bcast_S64x1_S64x2048_0_1 : S64x1.BroadcastsInDim S64x2048 (![0, 1] : Fin 2 → Fin S64x2048.rank)
  slices_S64x2048x14x14_S64x2048x8x8_0_0_0_0 : S64x2048x14x14.Slices ![0, 0, 0, 0] S64x2048x8x8
  reducesTo_S64x2048x8x8_S64x2048_d2_3 : S64x2048x8x8.ReducesTo [2, 3] S64x2048
  slices_S64x2048x14x14_S64x2048x8x8_0_0_0_2 : S64x2048x14x14.Slices ![0, 0, 0, 2] S64x2048x8x8
  slices_S64x2048x14x14_S64x2048x8x8_0_0_2_0 : S64x2048x14x14.Slices ![0, 0, 2, 0] S64x2048x8x8
  slices_S64x2048x14x14_S64x2048x8x8_0_0_2_2 : S64x2048x14x14.Slices ![0, 0, 2, 2] S64x2048x8x8
  slices_S64x2048x14x14_S64x2048x6x6_0_0_0_0 : S64x2048x14x14.Slices ![0, 0, 0, 0] S64x2048x6x6
  reducesTo_S64x2048x6x6_S64x2048_d2_3 : S64x2048x6x6.ReducesTo [2, 3] S64x2048
  slices_S64x2048x14x14_S64x2048x6x6_0_0_0_2 : S64x2048x14x14.Slices ![0, 0, 0, 2] S64x2048x6x6
  slices_S64x2048x14x14_S64x2048x6x6_0_0_0_4 : S64x2048x14x14.Slices ![0, 0, 0, 4] S64x2048x6x6
  slices_S64x2048x14x14_S64x2048x6x6_0_0_2_0 : S64x2048x14x14.Slices ![0, 0, 2, 0] S64x2048x6x6
  slices_S64x2048x14x14_S64x2048x6x6_0_0_2_2 : S64x2048x14x14.Slices ![0, 0, 2, 2] S64x2048x6x6
  slices_S64x2048x14x14_S64x2048x6x6_0_0_2_4 : S64x2048x14x14.Slices ![0, 0, 2, 4] S64x2048x6x6
  slices_S64x2048x14x14_S64x2048x6x6_0_0_4_0 : S64x2048x14x14.Slices ![0, 0, 4, 0] S64x2048x6x6
  slices_S64x2048x14x14_S64x2048x6x6_0_0_4_2 : S64x2048x14x14.Slices ![0, 0, 4, 2] S64x2048x6x6
  slices_S64x2048x14x14_S64x2048x6x6_0_0_4_4 : S64x2048x14x14.Slices ![0, 0, 4, 4] S64x2048x6x6

variable [Facts₀]

class Facts : Prop extends Facts₀ where

variable [Facts]
-- ==== Proof.KTripB.lean ====
import proofs.«140447_j87411174408226_2_alg».proof.Proof.Gen.Kernel.Loops

/-! The stores of one trip of the channel loop, and of all trips.

Trip `k` of the loop loads the 128-channel chunk `128 k … 128 k + 127` of the input block and stores, for each of the
fourteen windows `r`, the chunk's window maxima into row `r`, lanes `128 k … 128 k + 127`, of the output block.  The
values it loads back from the output block are never used, so the stores do not depend on what the output block
held before: the list of all stores is one closed function of the input block. -/

set_option maxRecDepth 16384
set_option maxHeartbeats 4000000

noncomputable section

namespace Cert.Kernel.GenP

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The chunk trip `k` loads: channels `128 k … 128 k + 127` of the input block's contents `X`. -/
def chunk (arg1 : Memref sig .tc .vmem S1x2048x14x14 .f32) (X : BufTy.Contents (Elt F) arg1.view.ty) (k : Fin k0_t1_loop.trips) :
    Vec F S1x128x14x14 .f32 :=
  View.readAt (Elt F) arg1.view (Rect.unit (s := S1x2048x14x14) (k0_off1 k) S1x128x14x14.size (k0_off1_inb k)).toLoadRect X

/-- The fourteen stores of trip `k`, the last one first: window `r`'s maxima of the chunk, at row `r` of the output block. -/
def tripPieces (arg1 : Memref sig .tc .vmem S1x2048x14x14 .f32) (X : BufTy.Contents (Elt F) arg1.view.ty) (k : Fin k0_t1_loop.trips) :
    List (View.Piece (Elt F) S1x14x2048 .f32) :=
  [
    ⟨Rect.unit (s := S1x14x2048) (k0_off15 k) S1x1x128.size (k0_off15_inb k), k0_pay14 (chunk arg1 X k)⟩,
    ⟨Rect.unit (s := S1x14x2048) (k0_off14 k) S1x1x128.size (k0_off14_inb k), k0_pay13 (chunk arg1 X k)⟩,
    ⟨Rect.unit (s := S1x14x2048) (k0_off13 k) S1x1x128.size (k0_off13_inb k), k0_pay12 (chunk arg1 X k)⟩,
    ⟨Rect.unit (s := S1x14x2048) (k0_off12 k) S1x1x128.size (k0_off12_inb k), k0_pay11 (chunk arg1 X k)⟩,
    ⟨Rect.unit (s := S1x14x2048) (k0_off11 k) S1x1x128.size (k0_off11_inb k), k0_pay10 (chunk arg1 X k)⟩,
    ⟨Rect.unit (s := S1x14x2048) (k0_off10 k) S1x1x128.size (k0_off10_inb k), k0_pay9 (chunk arg1 X k)⟩,
    ⟨Rect.unit (s := S1x14x2048) (k0_off9 k) S1x1x128.size (k0_off9_inb k), k0_pay8 (chunk arg1 X k)⟩,
    ⟨Rect.unit (s := S1x14x2048) (k0_off8 k) S1x1x128.size (k0_off8_inb k), k0_pay7 (chunk arg1 X k)⟩,
    ⟨Rect.unit (s := S1x14x2048) (k0_off7 k) S1x1x128.size (k0_off7_inb k), k0_pay6 (chunk arg1 X k)⟩,
    ⟨Rect.unit (s := S1x14x2048) (k0_off6 k) S1x1x128.size (k0_off6_inb k), k0_pay5 (chunk arg1 X k)⟩,
    ⟨Rect.unit (s := S1x14x2048) (k0_off5 k) S1x1x128.size (k0_off5_inb k), k0_pay4 (chunk arg1 X k)⟩,
    ⟨Rect.unit (s := S1x14x2048) (k0_off4 k) S1x1x128.size (k0_off4_inb k), k0_pay3 (chunk arg1 X k)⟩,
    ⟨Rect.unit (s := S1x14x2048) (k0_off3 k) S1x1x128.size (k0_off3_inb k), k0_pay2 (chunk arg1 X k)⟩,
    ⟨Rect.unit (s := S1x14x2048) (k0_off2 k) S1x1x128.size (k0_off2_inb k), k0_pay1 (chunk arg1 X k)⟩]

/-- The stores the run finds for trip `k` are those, whatever the output block held. -/
theorem tripL_eq (𝒱 : Variants) (c : Dev nD) (bd : Option 𝒱.V) (i : grid0.Coords) (arg1 : Memref sig .tc .vmem S1x2048x14x14 .f32) (harg1 : arg1.IsWhole)
    (arg2 : Memref sig .tc .vmem S1x14x2048 .f32) (harg2 : arg2.IsWhole) (X : BufTy.Contents (Elt F) arg1.view.ty) (k : Fin k0_t1_loop.trips)
    (f : BufTy.Contents (Elt F) arg2.view.ty) :
    tripL_k0_t1 (F := F) 𝒱 c bd i arg1 harg1 arg2 harg2 X k f = tripPieces arg1 X k := by
  unfold tripL_k0_t1 trip_k0_t1
  dsimp only
  sl_unfold_run_names
  rfl

/-- The stores of the trips before `n` do not depend on the contents the loop starts from. -/
theorem pb_indep (𝒱 : Variants) (c : Dev nD) (bd : Option 𝒱.V) (i : grid0.Coords) (arg1 : Memref sig .tc .vmem S1x2048x14x14 .f32) (harg1 : arg1.IsWhole)
    (arg2 : Memref sig .tc .vmem S1x14x2048 .f32) (harg2 : arg2.IsWhole) (X : BufTy.Contents (Elt F) arg1.view.ty)
    (G G' : BufTy.Contents (Elt F) arg2.view.ty) :
    ∀ n : ℕ, pb_k0_t1 (F := F) 𝒱 c bd i arg1 harg1 arg2 harg2 X G n = pb_k0_t1 (F := F) 𝒱 c bd i arg1 harg1 arg2 harg2 X G' n
  | 0 => rfl
  | n + 1 => by
    rw [pb_k0_t1.eq_2, pb_k0_t1.eq_2, pb_indep 𝒱 c bd i arg1 harg1 arg2 harg2 X G G' n]
    unfold pb_k0_t1Step
    by_cases h : n < k0_t1_loop.trips
    · rw [dif_pos h, dif_pos h, tripL_eq, tripL_eq]
    · rw [dif_neg h, dif_neg h]

/-- Every store of the trips before `n` is a store of some trip. -/
theorem mem_pb (𝒱 : Variants) (c : Dev nD) (bd : Option 𝒱.V) (i : grid0.Coords) (arg1 : Memref sig .tc .vmem S1x2048x14x14 .f32) (harg1 : arg1.IsWhole)
    (arg2 : Memref sig .tc .vmem S1x14x2048 .f32) (harg2 : arg2.IsWhole) (X : BufTy.Contents (Elt F) arg1.view.ty)
    (G : BufTy.Contents (Elt F) arg2.view.ty) (p : View.Piece (Elt F) S1x14x2048 .f32) :
    ∀ n : ℕ, p ∈ pb_k0_t1 (F := F) 𝒱 c bd i arg1 harg1 arg2 harg2 X G n → ∃ k : Fin k0_t1_loop.trips, p ∈ tripPieces arg1 X k
  | 0, h => absurd h List.not_mem_nil
  | n + 1, h => by
    rw [pb_k0_t1.eq_2] at h
    unfold pb_k0_t1Step at h
    by_cases hn : n < k0_t1_loop.trips
    · rw [dif_pos hn, tripL_eq] at h
      rcases List.mem_append.1 h with h | h
      · exact ⟨⟨n, hn⟩, h⟩
      · exact mem_pb 𝒱 c bd i arg1 harg1 arg2 harg2 X G p n h
    · rw [dif_neg hn] at h
      exact mem_pb 𝒱 c bd i arg1 harg1 arg2 harg2 X G p n h

end Cert.Kernel.GenP

end
-- ==== Proof.KTripI.lean ====
import proofs.«140447_j87411174408226_2_alg».proof.Proof.Gen.KernelIdeal.Loops

/-! The stores of one trip of the channel loop, and of all trips.

Trip `k` of the loop loads the 128-channel chunk `128 k … 128 k + 127` of the input block and stores, for each of the
fourteen windows `r`, the chunk's window maxima into row `r`, lanes `128 k … 128 k + 127`, of the output block.  The
values it loads back from the output block are never used, so the stores do not depend on what the output block
held before: the list of all stores is one closed function of the input block. -/

set_option maxRecDepth 16384
set_option maxHeartbeats 4000000

noncomputable section

namespace Cert.KernelIdeal.GenP

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The chunk trip `k` loads: channels `128 k … 128 k + 127` of the input block's contents `X`. -/
def chunk (arg1 : Memref sig .tc .vmem S1x2048x14x14 .f32) (X : BufTy.Contents (Elt F) arg1.view.ty) (k : Fin k0_t1_loop.trips) :
    Vec F S1x128x14x14 .f32 :=
  View.readAt (Elt F) arg1.view (Rect.unit (s := S1x2048x14x14) (k0_off1 k) S1x128x14x14.size (k0_off1_inb k)).toLoadRect X

/-- The fourteen stores of trip `k`, the last one first: window `r`'s maxima of the chunk, at row `r` of the output block. -/
def tripPieces (arg1 : Memref sig .tc .vmem S1x2048x14x14 .f32) (X : BufTy.Contents (Elt F) arg1.view.ty) (k : Fin k0_t1_loop.trips) :
    List (View.Piece (Elt F) S1x14x2048 .f32) :=
  [
    ⟨Rect.unit (s := S1x14x2048) (k0_off15 k) S1x1x128.size (k0_off15_inb k), k0_pay14 (chunk arg1 X k)⟩,
    ⟨Rect.unit (s := S1x14x2048) (k0_off14 k) S1x1x128.size (k0_off14_inb k), k0_pay13 (chunk arg1 X k)⟩,
    ⟨Rect.unit (s := S1x14x2048) (k0_off13 k) S1x1x128.size (k0_off13_inb k), k0_pay12 (chunk arg1 X k)⟩,
    ⟨Rect.unit (s := S1x14x2048) (k0_off12 k) S1x1x128.size (k0_off12_inb k), k0_pay11 (chunk arg1 X k)⟩,
    ⟨Rect.unit (s := S1x14x2048) (k0_off11 k) S1x1x128.size (k0_off11_inb k), k0_pay10 (chunk arg1 X k)⟩,
    ⟨Rect.unit (s := S1x14x2048) (k0_off10 k) S1x1x128.size (k0_off10_inb k), k0_pay9 (chunk arg1 X k)⟩,
    ⟨Rect.unit (s := S1x14x2048) (k0_off9 k) S1x1x128.size (k0_off9_inb k), k0_pay8 (chunk arg1 X k)⟩,
    ⟨Rect.unit (s := S1x14x2048) (k0_off8 k) S1x1x128.size (k0_off8_inb k), k0_pay7 (chunk arg1 X k)⟩,
    ⟨Rect.unit (s := S1x14x2048) (k0_off7 k) S1x1x128.size (k0_off7_inb k), k0_pay6 (chunk arg1 X k)⟩,
    ⟨Rect.unit (s := S1x14x2048) (k0_off6 k) S1x1x128.size (k0_off6_inb k), k0_pay5 (chunk arg1 X k)⟩,
    ⟨Rect.unit (s := S1x14x2048) (k0_off5 k) S1x1x128.size (k0_off5_inb k), k0_pay4 (chunk arg1 X k)⟩,
    ⟨Rect.unit (s := S1x14x2048) (k0_off4 k) S1x1x128.size (k0_off4_inb k), k0_pay3 (chunk arg1 X k)⟩,
    ⟨Rect.unit (s := S1x14x2048) (k0_off3 k) S1x1x128.size (k0_off3_inb k), k0_pay2 (chunk arg1 X k)⟩,
    ⟨Rect.unit (s := S1x14x2048) (k0_off2 k) S1x1x128.size (k0_off2_inb k), k0_pay1 (chunk arg1 X k)⟩]

/-- The stores the run finds for trip `k` are those, whatever the output block held. -/
theorem tripL_eq (𝒱 : Variants) (c : Dev nD) (bd : Option 𝒱.V) (i : grid0.Coords) (arg1 : Memref sig .tc .vmem S1x2048x14x14 .f32) (harg1 : arg1.IsWhole)
    (arg2 : Memref sig .tc .vmem S1x14x2048 .f32) (harg2 : arg2.IsWhole) (X : BufTy.Contents (Elt F) arg1.view.ty) (k : Fin k0_t1_loop.trips)
    (f : BufTy.Contents (Elt F) arg2.view.ty) :
    tripL_k0_t1 (F := F) 𝒱 c bd i arg1 harg1 arg2 harg2 X k f = tripPieces arg1 X k := by
  unfold tripL_k0_t1 trip_k0_t1
  dsimp only
  sl_unfold_run_names
  rfl

/-- The stores of the trips before `n` do not depend on the contents the loop starts from. -/
theorem pb_indep (𝒱 : Variants) (c : Dev nD) (bd : Option 𝒱.V) (i : grid0.Coords) (arg1 : Memref sig .tc .vmem S1x2048x14x14 .f32) (harg1 : arg1.IsWhole)
    (arg2 : Memref sig .tc .vmem S1x14x2048 .f32) (harg2 : arg2.IsWhole) (X : BufTy.Contents (Elt F) arg1.view.ty)
    (G G' : BufTy.Contents (Elt F) arg2.view.ty) :
    ∀ n : ℕ, pb_k0_t1 (F := F) 𝒱 c bd i arg1 harg1 arg2 harg2 X G n = pb_k0_t1 (F := F) 𝒱 c bd i arg1 harg1 arg2 harg2 X G' n
  | 0 => rfl
  | n + 1 => by
    rw [pb_k0_t1.eq_2, pb_k0_t1.eq_2, pb_indep 𝒱 c bd i arg1 harg1 arg2 harg2 X G G' n]
    unfold pb_k0_t1Step
    by_cases h : n < k0_t1_loop.trips
    · rw [dif_pos h, dif_pos h, tripL_eq, tripL_eq]
    · rw [dif_neg h, dif_neg h]

/-- Every store of the trips before `n` is a store of some trip. -/
theorem mem_pb (𝒱 : Variants) (c : Dev nD) (bd : Option 𝒱.V) (i : grid0.Coords) (arg1 : Memref sig .tc .vmem S1x2048x14x14 .f32) (harg1 : arg1.IsWhole)
    (arg2 : Memref sig .tc .vmem S1x14x2048 .f32) (harg2 : arg2.IsWhole) (X : BufTy.Contents (Elt F) arg1.view.ty)
    (G : BufTy.Contents (Elt F) arg2.view.ty) (p : View.Piece (Elt F) S1x14x2048 .f32) :
    ∀ n : ℕ, p ∈ pb_k0_t1 (F := F) 𝒱 c bd i arg1 harg1 arg2 harg2 X G n → ∃ k : Fin k0_t1_loop.trips, p ∈ tripPieces arg1 X k
  | 0, h => absurd h List.not_mem_nil
  | n + 1, h => by
    rw [pb_k0_t1.eq_2] at h
    unfold pb_k0_t1Step at h
    by_cases hn : n < k0_t1_loop.trips
    · rw [dif_pos hn, tripL_eq] at h
      rcases List.mem_append.1 h with h | h
      · exact ⟨⟨n, hn⟩, h⟩
      · exact mem_pb 𝒱 c bd i arg1 harg1 arg2 harg2 X G p n h
    · rw [dif_neg hn] at h
      exact mem_pb 𝒱 c bd i arg1 harg1 arg2 harg2 X G p n h

end Cert.KernelIdeal.GenP

end
-- ==== Proof.Spec.lean ====
import Idealize.ShloMosaic.PureOps.Ideal
import Idealize.ShloMosaic.Lib.ValueIdx

/-! Regional maximum pooling of a 14 × 14 feature map.

Fourteen square windows are laid over the map: one of side 13 at the corner, four of side 8 at the
corners (0,0), (0,2), (2,0), (2,2), nine of side 6 at the corners with coordinates in {0, 2, 4}.  For a
batch entry and a window, the channel vector of window maxima is divided by its Euclidean norm; the
result is the sum of the fourteen quotient vectors. -/

noncomputable section

namespace Cert.Rmac

open Idealize.ShloMosaic Idealize.ShloMosaic.ValueIdx

/-- The positions of the square window with top-left corner `(oh, ow)` and side `n`. -/
def window (oh ow n : Nat) : Finset (Fin 14 × Fin 14) :=
  Finset.univ.filter fun p => oh ≤ p.1.val ∧ p.1.val < oh + n ∧ ow ≤ p.2.val ∧ p.2.val < ow + n

/-- The maximum of `x` at batch entry `b` and channel `c` over that window (the supremum of the
    extended reals; an empty window would give `⊥`). -/
def poolAt (oh ow n : Nat) (x : (⟨4, ![64, 2048, 14, 14]⟩ : Shape).Idx → EReal) (b : Fin 64) (c : Fin 2048) : EReal :=
  (window oh ow n).sup fun p => x (ix4 b c p.1 p.2)

/-- The fourteen windows: row of the corner, column of the corner, side. -/
def winH : Fin 14 → Nat := ![0, 0, 0, 2, 2, 0, 0, 0, 2, 2, 2, 4, 4, 4]
def winW : Fin 14 → Nat := ![0, 0, 2, 0, 2, 0, 2, 4, 0, 2, 4, 0, 2, 4]
def winN : Fin 14 → Nat := ![13, 8, 8, 8, 8, 6, 6, 6, 6, 6, 6, 6, 6, 6]

/-- The maximum over window `r`. -/
def pool (x : (⟨4, ![64, 2048, 14, 14]⟩ : Shape).Idx → EReal) (r : Fin 14) (b : Fin 64) (c : Fin 2048) : EReal :=
  poolAt (winH r) (winW r) (winN r) x b c

/-- A channel vector divided by its Euclidean norm, at channel `c`: the quotient by the square root of
    the sum of squares (the sum started from zero, as both programs start it). -/
def normed (p : Fin 2048 → EReal) (c : Fin 2048) : EReal :=
  Ideal.div (p c) (Ideal.sqrt (0 + ∑ k : Fin 2048, p k * p k))

/-- The pooled descriptor: the sum over the fourteen windows of the normalized window maxima. -/
def G (x : (⟨4, ![64, 2048, 14, 14]⟩ : Shape).Idx → EReal) : (⟨2, ![64, 2048]⟩ : Shape).Idx → EReal :=
  fun i => ∑ r : Fin 14, normed (fun k => pool x r (i 0) k) (i 1)

end Cert.Rmac

end
-- ==== Proof.KPool.lean ====
import proofs.«140447_j87411174408226_2_alg».proof.Proof.Spec
import Idealize.ShloMosaic.PureOps.Ideal.Laws
import Idealize.ShloMosaic.Lib.Pipeline.Value
import Idealize.ShloMosaic.Lib.ValueIdx

/-! A window maximum taken in two steps.

A 128-channel chunk of one batch entry's 14 × 14 map is cut to a square window, reduced by `max` from
`-∞` along its columns and then along its rows.  Since `-∞` is the least extended real, each of the two
folds is a supremum, and the supremum of the row suprema is the supremum over the window's positions. -/

noncomputable section

namespace Cert.Rmac

open Idealize.ShloMosaic Idealize.ShloMosaic.ValueIdx

/-- A fold of `max` from `-∞` over a finite set is the supremum over the set. -/
theorem fold_max_bot {ι : Type} (s : Finset ι) (f : ι → EReal) :
    s.fold (FloatOps.maximumf (F := Ideal) (φ := .f32)) (FloatOps.ofBits (F := Ideal) .f32 0xFF800000#32) f = s.sup f := by
  have hb : FloatOps.ofBits (F := Ideal) .f32 0xFF800000#32 = (⊥ : EReal) := by
    show Ideal.ofBits .f32 0xFF800000#32 = ⊥
    simp [Ideal.ofBits, Ideal.ieee]
  rw [hb]
  induction s using Finset.cons_induction with
  | empty => rfl
  | cons a s ha ih => rw [Finset.fold_cons, Finset.sup_cons, ih]; rfl

/-- Membership in a window, spelled out. -/
theorem mem_window {oh ow n : Nat} {p : Fin 14 × Fin 14} :
    p ∈ window oh ow n ↔ oh ≤ p.1.val ∧ p.1.val < oh + n ∧ ow ≤ p.2.val ∧ p.2.val < ow + n := by
  unfold window; rw [Finset.mem_filter]; exact ⟨fun h => h.2, fun h => ⟨Finset.mem_univ _, h⟩⟩

/-- Dropping one axis keeps the coordinates on the axes before it. -/
theorem drop_val_of_lt {s t : Shape} {a : Fin s.rank} (h : s.Reduces [a] t) (i : s.Idx) (b : Fin t.rank) (c : Fin s.rank)
    (hc : c.val = b.val) (hlt : b.val < a.val) : (h.drop i b).val = (i c).val := by
  rw [h.drop_apply_val]
  have kv := h.kept_single_val b
  rw [if_pos hlt] at kv
  have e : (s.kept [a])[b.cast h.1] = c := Fin.ext (by rw [kv, hc])
  rw [e]

/-- The two-step maximum of the window with corner `(oh, ow)` and side `n` of a 128-channel chunk `v`, at
    channel `b`: the supremum of `v` over the window's positions. -/
theorem chunk_window_max (oh ow n : Nat) (hoh : oh + n ≤ 14) (how : ow + n ≤ 14)
    (v : FVec Ideal (⟨4, ![1, 128, 14, 14]⟩ : Shape) .f32)
    (hs : (⟨4, ![1, 128, 14, 14]⟩ : Shape).Slices ![0, 0, oh, ow] ⟨4, ![1, 128, n, n]⟩)
    (hr1 : (⟨4, ![1, 128, n, n]⟩ : Shape).Reduces [3] ⟨3, ![1, 128, n]⟩)
    (hr2 : (⟨3, ![1, 128, n]⟩ : Shape).Reduces [2] ⟨2, ![1, 128]⟩)
    (hφ1 hφ2 : FKind.Formats .f32)
    (ha1 : (0xFF800000#32 : BitVec 32) = FKind.maximumf.neutral .f32 hφ1)
    (ha2 : (0xFF800000#32 : BitVec 32) = FKind.maximumf.neutral .f32 hφ2)
    (a : Fin 1) (b : Fin 128) :
    multiReduction .maximumf [2] ⟨2, ![1, 128]⟩
        (multiReduction .maximumf [3] ⟨3, ![1, 128, n]⟩
          (extractStridedSlice ⟨4, ![1, 128, n, n]⟩ ![0, 0, oh, ow] v hs) 0xFF800000#32 hr1 hφ1 ha1)
        0xFF800000#32 hr2 hφ2 ha2 (ix2 a b)
      = (window oh ow n).sup fun p => v (ix4 a b p.1 p.2) := by
  rw [multiReduction_maximumf_eq_fold, fold_max_bot]
  apply le_antisymm
  · refine Finset.sup_le fun i hi => ?_
    have hij := (Finset.mem_filter.1 hi).2
    rw [multiReduction_maximumf_eq_fold, fold_max_bot]
    refine Finset.sup_le fun i' hi' => ?_
    have hi'i := (Finset.mem_filter.1 hi').2
    have e0 : (i' 0).val = a.val := by
      have h1 : (hr1.drop i' 0).val = (i' 0).val := drop_val_of_lt hr1 i' 0 0 rfl (by show (0 : Nat) < 3; omega)
      have h2 : (hr2.drop i 0).val = (i 0).val := drop_val_of_lt hr2 i 0 0 rfl (by show (0 : Nat) < 2; omega)
      have h3 : (hr2.drop i 0).val = a.val := by rw [hij]
      rw [← h1, hi'i, ← h2, h3]
    have e1 : (i' 1).val = b.val := by
      have h1 : (hr1.drop i' 1).val = (i' 1).val := drop_val_of_lt hr1 i' 1 1 rfl (by show (1 : Nat) < 3; omega)
      have h2 : (hr2.drop i 1).val = (i 1).val := drop_val_of_lt hr2 i 1 1 rfl (by show (1 : Nat) < 2; omega)
      have h3 : (hr2.drop i 1).val = b.val := by rw [hij]
      rw [← h1, hi'i, ← h2, h3]
    have h2 : (i' 2).val < n := (i' 2).isLt
    have h3 : (i' 3).val < n := (i' 3).isLt
    rw [extractStridedSlice_apply ![0, 0, oh, ow] v hs i'
      (ix4 a b (⟨oh + (i' 2).val, by omega⟩ : Fin 14) (⟨ow + (i' 3).val, by omega⟩ : Fin 14)) (fun c => by
        match c with
        | ⟨0, _⟩ => show a.val = 0 + (i' 0).val; omega
        | ⟨1, _⟩ => show b.val = 0 + (i' 1).val; omega
        | ⟨2, _⟩ => rfl
        | ⟨3, _⟩ => rfl)]
    exact Finset.le_sup (f := fun p : Fin 14 × Fin 14 => v (ix4 a b p.1 p.2))
      (b := ((⟨oh + (i' 2).val, by omega⟩ : Fin 14), (⟨ow + (i' 3).val, by omega⟩ : Fin 14)))
      (mem_window.2 ⟨by show oh ≤ oh + (i' 2).val; omega, by show oh + (i' 2).val < oh + n; omega,
        by show ow ≤ ow + (i' 3).val; omega, by show ow + (i' 3).val < ow + n; omega⟩)
  · refine Finset.sup_le fun p hp => ?_
    obtain ⟨p1, p2, p3, p4⟩ := mem_window.1 hp
    -- the row of the window that holds p, then its column
    have hhl : p.1.val - oh < n := by omega
    have wwl : p.2.val - ow < n := by omega
    have hmem : (ix3 a b (⟨p.1.val - oh, hhl⟩ : Fin n) : (⟨3, ![1, 128, n]⟩ : Shape).Idx) ∈
        Finset.univ.filter fun i => hr2.drop i = (ix2 a b : (⟨2, ![1, 128]⟩ : Shape).Idx) :=
      Finset.mem_filter.2 ⟨Finset.mem_univ _, funext fun bb => Fin.ext (by
        match bb with
        | ⟨0, _⟩ => exact drop_val_of_lt hr2 _ 0 0 rfl (by show (0 : Nat) < 2; omega)
        | ⟨1, _⟩ => exact drop_val_of_lt hr2 _ 1 1 rfl (by show (1 : Nat) < 2; omega))⟩
    refine le_trans ?_ (Finset.le_sup hmem)
    rw [multiReduction_maximumf_eq_fold, fold_max_bot]
    have hmem' : (ix4 a b (⟨p.1.val - oh, hhl⟩ : Fin n) (⟨p.2.val - ow, wwl⟩ : Fin n) : (⟨4, ![1, 128, n, n]⟩ : Shape).Idx) ∈
        Finset.univ.filter fun i' => hr1.drop i' = (ix3 a b (⟨p.1.val - oh, hhl⟩ : Fin n) : (⟨3, ![1, 128, n]⟩ : Shape).Idx) :=
      Finset.mem_filter.2 ⟨Finset.mem_univ _, funext fun bb => Fin.ext (by
        match bb with
        | ⟨0, _⟩ => exact drop_val_of_lt hr1 _ 0 0 rfl (by show (0 : Nat) < 3; omega)
        | ⟨1, _⟩ => exact drop_val_of_lt hr1 _ 1 1 rfl (by show (1 : Nat) < 3; omega)
        | ⟨2, _⟩ => exact drop_val_of_lt hr1 _ 2 2 rfl (by show (2 : Nat) < 3; omega))⟩
    refine le_trans (le_of_eq ?_) (Finset.le_sup hmem')
    refine (extractStridedSlice_apply ![0, 0, oh, ow] v hs (ix4 a b (⟨p.1.val - oh, hhl⟩ : Fin n) (⟨p.2.val - ow, wwl⟩ : Fin n)) (ix4 a b p.1 p.2) (fun c => by
        match c with
        | ⟨0, _⟩ => show a.val = 0 + a.val; omega
        | ⟨1, _⟩ => show b.val = 0 + b.val; omega
        | ⟨2, _⟩ => show p.1.val = oh + (p.1.val - oh); omega
        | ⟨3, _⟩ => show p.2.val = ow + (p.2.val - ow); omega)).symm

end Cert.Rmac

end
-- ==== Proof.KBlock.lean ====
import proofs.«140447_j87411174408226_2_alg».proof.Proof.KFrameI
import proofs.«140447_j87411174408226_2_alg».proof.Proof.KPool
import Idealize.ShloMosaic.Lib.Pipeline.Value

/-! What the kernel body leaves in the output block.

For one batch entry the body runs sixteen trips; trip `k` stores, for each window `r`, the window maxima of channels
`128 k … 128 k + 127` into row `r` of the output block at those lanes.  Every store is therefore a block of ONE function of
the output block's index `(0, r, c)`: the maximum of the input block over window `r` at channel `c`.  The stores tile the
output block, so the block ends holding that function. -/

set_option maxRecDepth 16384

noncomputable section

namespace Cert.Rmac.K

open Cert.KernelIdeal Cert.KernelIdeal.Gen Cert.KernelIdeal.GenP
open Idealize.ShloMosaic Idealize.ShloMosaic.TcCoe Idealize.ShloMosaic.ValueIdx
open Idealize.SL.Sem

/-- The maximum of the input block `x0` (one batch entry) over window `r`, at channel `c`. -/
def poolB (x0 : S1x2048x14x14.Idx → EReal) (r : Fin 14) (c : Fin 2048) : EReal :=
  (window (winH r) (winW r) (winN r)).sup fun p => x0 (ix4 0 c p.1 p.2)

/-- The output block: row `r`, lane `c` holds window `r`'s maximum at channel `c`. -/
def blockPool (x0 : S1x2048x14x14.Idx → EReal) : S1x14x2048.Idx → EReal :=
  fun y => poolB x0 ⟨(y 1).val, (y 1).isLt⟩ ⟨(y 2).val, (y 2).isLt⟩

/-- One store's value: the two-step maximum of a chunk's window, re-laid as a `1 × 1 × 128` piece. -/
theorem pay_eq (oh ow n : Nat) (hoh : oh + n ≤ 14) (how : ow + n ≤ 14)
    (v : FVec Ideal S1x128x14x14 .f32)
    (hs : S1x128x14x14.Slices ![0, 0, oh, ow] ⟨4, ![1, 128, n, n]⟩)
    (hr1 : (⟨4, ![1, 128, n, n]⟩ : Shape).Reduces [3] ⟨3, ![1, 128, n]⟩)
    (hr2 : (⟨3, ![1, 128, n]⟩ : Shape).Reduces [2] S1x128)
    (hsc : S1x128.ShapeCasts S1x1x128) (x : S1x1x128.Idx) :
    shapeCast S1x1x128
        (multiReduction .maximumf [2] S1x128
          (multiReduction .maximumf [3] ⟨3, ![1, 128, n]⟩
            (extractStridedSlice ⟨4, ![1, 128, n, n]⟩ ![0, 0, oh, ow] v hs) 0xFF800000#32 hr1 (.inl rfl) rfl)
          0xFF800000#32 hr2 (.inl rfl) rfl) hsc x
      = (window oh ow n).sup fun p => v (ix4 (⟨(x 1).val, (x 1).isLt⟩ : Fin 1) (⟨(x 2).val, (x 2).isLt⟩ : Fin 128) p.1 p.2) := by
  refine (shapeCast_addUnit_apply ![1, 128] _ hsc x).trans ?_
  have e : (fun a => x a.succ : S1x128.Idx) = ix2 (⟨(x 1).val, (x 1).isLt⟩ : Fin 1) (⟨(x 2).val, (x 2).isLt⟩ : Fin 128) :=
    funext fun a => by match a with | ⟨0, _⟩ => rfl | ⟨1, _⟩ => rfl
  refine (congrArg _ e).trans ?_
  exact chunk_window_max oh ow n hoh how v hs hr1 hr2 _ _ _ _ _ _

/-- The chunk trip `k` loads, read at an index: the input block at channel `128 k + b`. -/
theorem chunk_apply (arg1 : Memref sig .tc .vmem S1x2048x14x14 .f32) (harg1 : arg1.IsWhole) (x0 : S1x2048x14x14.Idx → EReal)
    (k : Fin k0_t1_loop.trips) (a : Fin 1) (b : Fin 128) (p1 p2 : Fin 14) (hb : 128 * k.val + b.val < 2048) :
    chunk (F := Ideal) arg1 (harg1.unread x0) k (ix4 a b p1 p2) = x0 (ix4 0 ⟨128 * k.val + b.val, hb⟩ p1 p2) := by
  unfold chunk
  rw [View.readAt_eq_ld, harg1.read_unread]
  show x0 ((Rect.unit (s := S1x2048x14x14) (k0_off1 k) S1x128x14x14.size (k0_off1_inb k)).toLoadRect.idx (ix4 a b p1 p2)) = _
  refine congrArg x0 (funext fun c => Fin.ext ?_)
  rw [LoadRect.idx_apply]
  show k0_off1 k c + 1 * ((ix4 a b p1 p2 : S1x128x14x14.Idx) c).val = _
  rw [k0_off1_eq k]
  have ha : a.val = 0 := by omega
  match c with
  | ⟨0, _⟩ => show 0 + 1 * a.val = 0; omega
  | ⟨1, _⟩ => show 128 * k.val + 1 * b.val = 128 * k.val + b.val; omega
  | ⟨2, _⟩ => show 0 + 1 * p1.val = p1.val; omega
  | ⟨3, _⟩ => show 0 + 1 * p2.val = p2.val; omega

/-- A store of trip `k` at row `r` whose value is window `r`'s two-step maximum of the trip's chunk is a block of `blockPool`. -/
theorem piece_ok (arg1 : Memref sig .tc .vmem S1x2048x14x14 .f32) (harg1 : arg1.IsWhole) (x0 : S1x2048x14x14.Idx → EReal)
    (k : Fin k0_t1_loop.trips) (r : Fin 14) (off : Fin 3 → ℕ) (hoff : off = ![0, r.val, 128 * k.val])
    (inb : ∀ a, off a + S1x1x128.size a ≤ S1x14x2048.size a)
    (pay : Vec Ideal S1x128x14x14 .f32 → FVec Ideal S1x1x128 .f32)
    (hpay : ∀ (v : FVec Ideal S1x128x14x14 .f32) (x : S1x1x128.Idx), pay v x
      = (window (winH r) (winW r) (winN r)).sup fun p => v (ix4 (⟨(x 1).val, (x 1).isLt⟩ : Fin 1) (⟨(x 2).val, (x 2).isLt⟩ : Fin 128) p.1 p.2)) :
    ∀ x : S1x1x128.Idx, pay (chunk (F := Ideal) arg1 (harg1.unread x0) k) x
      = blockPool x0 ((Rect.unit (s := S1x14x2048) off S1x1x128.size inb).emb x) := by
  intro x
  have hk : k.val < 16 := Nat.lt_of_lt_of_le k.isLt k0_t1_abs.2.1
  have hx1 : (x 1).val < 1 := (x 1).isLt
  have hx2 : (x 2).val < 128 := (x 2).isLt
  have e1 : ((Rect.unit (s := S1x14x2048) off S1x1x128.size inb).emb x 1).val = r.val := by
    rw [Rect.emb_apply]; show off 1 + 1 * (x 1).val = r.val; rw [hoff]; show r.val + 1 * (x 1).val = r.val; omega
  have e2 : ((Rect.unit (s := S1x14x2048) off S1x1x128.size inb).emb x 2).val = 128 * k.val + (x 2).val := by
    rw [Rect.emb_apply]; show off 2 + 1 * (x 2).val = _; rw [hoff]; show 128 * k.val + 1 * (x 2).val = _; omega
  rw [hpay]
  unfold blockPool poolB
  have er : (⟨((Rect.unit (s := S1x14x2048) off S1x1x128.size inb).emb x 1).val, ((Rect.unit (s := S1x14x2048) off S1x1x128.size inb).emb x 1).isLt⟩ : Fin 14) = r :=
    Fin.ext e1
  rw [er]
  refine Finset.sup_congr rfl fun p _ => ?_
  rw [chunk_apply arg1 harg1 x0 k _ _ p.1 p.2 (by show 128 * k.val + (x 2).val < 2048; omega)]
  exact congrArg x0 (congrArg (fun c : Fin 2048 => (ix4 0 c p.1 p.2 : S1x2048x14x14.Idx)) (Fin.ext e2.symm))

/-- THE BODY'S RESULT: the output block ends holding every window's maxima of the input block. -/
theorem out_eq (c : Dev nD) (i : grid0.Coords) (arg1 : Memref sig .tc .vmem S1x2048x14x14 .f32) (harg1 : arg1.IsWhole)
    (arg2 : Memref sig .tc .vmem S1x14x2048 .f32) (harg2 : arg2.IsWhole) (x0 : Vec Ideal S1x2048x14x14 .f32) :
    out0_A_1 (F := Ideal) c i arg1 harg1 arg2 harg2 x0 = blockPool x0 := by
  unfold out0_A_1
  rw [View.read_writes_eq_canon _ _ _ (cover0_A_1 c i arg1 harg1 arg2 harg2 x0)]
  funext y
  refine View.canon_apply_of_pieces (blockPool x0) _ ?_ y (cover0_A_1 c i arg1 harg1 arg2 harg2 x0 y)
  intro p hp
  have hp' : p ∈ pb_k0_t1 (F := Ideal) Variants.none c none i arg1 harg1 arg2 harg2 (harg1.unread x0) arg2.view.junk
      (Scf.trips k0_t1_loop.lb k0_t1_loop.ub k0_t1_loop.st) := hp
  obtain ⟨k, hk⟩ := mem_pb Variants.none c none i arg1 harg1 arg2 harg2 (harg1.unread x0) arg2.view.junk p _ hp'
  unfold tripPieces at hk
  simp only [List.mem_cons, List.mem_nil_iff, or_false] at hk
  rcases hk with rfl | rfl | rfl | rfl | rfl | rfl | rfl | rfl | rfl | rfl | rfl | rfl | rfl | rfl
  · exact piece_ok arg1 harg1 x0 k 13 (k0_off15 k) (k0_off15_eq k) (k0_off15_inb k) k0_pay14 (fun v x => pay_eq 4 4 6 (by omega) (by omega) v _ _ _ _ x)
  · exact piece_ok arg1 harg1 x0 k 12 (k0_off14 k) (k0_off14_eq k) (k0_off14_inb k) k0_pay13 (fun v x => pay_eq 4 2 6 (by omega) (by omega) v _ _ _ _ x)
  · exact piece_ok arg1 harg1 x0 k 11 (k0_off13 k) (k0_off13_eq k) (k0_off13_inb k) k0_pay12 (fun v x => pay_eq 4 0 6 (by omega) (by omega) v _ _ _ _ x)
  · exact piece_ok arg1 harg1 x0 k 10 (k0_off12 k) (k0_off12_eq k) (k0_off12_inb k) k0_pay11 (fun v x => pay_eq 2 4 6 (by omega) (by omega) v _ _ _ _ x)
  · exact piece_ok arg1 harg1 x0 k 9 (k0_off11 k) (k0_off11_eq k) (k0_off11_inb k) k0_pay10 (fun v x => pay_eq 2 2 6 (by omega) (by omega) v _ _ _ _ x)
  · exact piece_ok arg1 harg1 x0 k 8 (k0_off10 k) (k0_off10_eq k) (k0_off10_inb k) k0_pay9 (fun v x => pay_eq 2 0 6 (by omega) (by omega) v _ _ _ _ x)
  · exact piece_ok arg1 harg1 x0 k 7 (k0_off9 k) (k0_off9_eq k) (k0_off9_inb k) k0_pay8 (fun v x => pay_eq 0 4 6 (by omega) (by omega) v _ _ _ _ x)
  · exact piece_ok arg1 harg1 x0 k 6 (k0_off8 k) (k0_off8_eq k) (k0_off8_inb k) k0_pay7 (fun v x => pay_eq 0 2 6 (by omega) (by omega) v _ _ _ _ x)
  · exact piece_ok arg1 harg1 x0 k 5 (k0_off7 k) (k0_off7_eq k) (k0_off7_inb k) k0_pay6 (fun v x => pay_eq 0 0 6 (by omega) (by omega) v _ _ _ _ x)
  · exact piece_ok arg1 harg1 x0 k 4 (k0_off6 k) (k0_off6_eq k) (k0_off6_inb k) k0_pay5 (fun v x => pay_eq 2 2 8 (by omega) (by omega) v _ _ _ _ x)
  · exact piece_ok arg1 harg1 x0 k 3 (k0_off5 k) (k0_off5_eq k) (k0_off5_inb k) k0_pay4 (fun v x => pay_eq 2 0 8 (by omega) (by omega) v _ _ _ _ x)
  · exact piece_ok arg1 harg1 x0 k 2 (k0_off4 k) (k0_off4_eq k) (k0_off4_inb k) k0_pay3 (fun v x => pay_eq 0 2 8 (by omega) (by omega) v _ _ _ _ x)
  · exact piece_ok arg1 harg1 x0 k 1 (k0_off3 k) (k0_off3_eq k) (k0_off3_inb k) k0_pay2 (fun v x => pay_eq 0 0 8 (by omega) (by omega) v _ _ _ _ x)
  · exact piece_ok arg1 harg1 x0 k 0 (k0_off2 k) (k0_off2_eq k) (k0_off2_inb k) k0_pay1 (fun v x => pay_eq 0 0 13 (by omega) (by omega) v _ _ _ _ x)

end Cert.Rmac.K

end
-- ==== Proof.KArray.lean ====
import proofs.«140447_j87411174408226_2_alg».proof.Proof.KBlock

/-! From the output blocks to the raw array of window maxima.

Grid point `t` stages batch entry `t` of the input and writes back batch entry `t` of the raw array.  The block it writes is
`blockPool` of the input block, which is the restriction to batch entry `t` of one function of the whole input: window `r`'s
maximum at batch entry `b`, channel `c`.  The sixty-four blocks tile the raw array, so it ends holding that function. -/

set_option maxRecDepth 16384

noncomputable section

namespace Cert.Rmac.K

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The raw array: at `(b, r, c)` window `r`'s maximum of the input `x` at batch entry `b`, channel `c`. -/
def rawG (x : S64x2048x14x14.Idx → EReal) : S64x14x2048.Idx → EReal :=
  fun i => pool x ⟨(i 1).val, (i 1).isLt⟩ ⟨(i 0).val, (i 0).isLt⟩ ⟨(i 2).val, (i 2).isLt⟩

/-- The printed index maps, decided over the grid: point `t` stages batch entry `t` of the input and of the raw array, whole. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0 :=
  (by decide +kernel : ∀ t : Fin grid0.N, _)

/-- The input block at point `t` is batch entry `t` of the input. -/
theorem iblk_apply (c : Dev nD) (t : Fin cfg0.N) (b : Fin 2048) (p1 p2 : Fin 14) (ht : t.val < 64) :
    (iblk m c 0 t : S1x2048x14x14.Idx → EReal) (ix4 0 b p1 p2)
      = (V m c main_arg0 : S64x2048x14x14.Idx → EReal) (ix4 ⟨t.val, ht⟩ b p1 p2) := by
  obtain ⟨a0, a1, a2, a3, -, -, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * 0 = t.val; omega
  | ⟨1, _⟩ => show win0_0.index t (1 : Fin 4) * 2048 + 1 * b.val = b.val; omega
  | ⟨2, _⟩ => show win0_0.index t (2 : Fin 4) * 14 + 1 * p1.val = p1.val; omega
  | ⟨3, _⟩ => show win0_0.index t (3 : Fin 4) * 14 + 1 * p2.val = p2.val; omega

/-- WHAT POINT `t` WRITES BACK is block `t` of the raw array of the input as the region finds it. -/
theorem flushed_eq (c : Dev nD) (t : Fin cfg0.N) :
    (dats m 0 c).flushed 1 t = ((cfg0.win 1).blk t).view.read (Elt Ideal) (rawG (V m c main_arg0)) := by
  have ht : t.val < 64 := Nat.lt_of_lt_of_eq t.isLt N_0
  obtain ⟨-, -, -, -, b0, b1, b2⟩ := idx_facts t
  show (cfg0.win 1).cut (grid0.coords t) ((dats m 0 c).after 1 t) = _
  rw [after0_1]
  unfold outsAt0
  rw [out_eq c (grid0.coords t) (ms0_0 t) (hs0_0 t) (ms0_1 t) (hs0_1 t) (iblk m c 0 t)]
  funext j
  show blockPool (iblk m c 0 t) j = rawG (V m c main_arg0) (((cfg0.win 1).blk t).view.emb j)
  have hj0 : (j 0).val < 1 := (j 0).isLt
  have e0 : ((((cfg0.win 1).blk t).view.emb j) 0).val = t.val := by
    show win0_1.index t (0 : Fin 3) * 1 + 1 * (j 0).val = t.val; omega
  have e1 : ((((cfg0.win 1).blk t).view.emb j) 1).val = (j 1).val := by
    show win0_1.index t (1 : Fin 3) * 14 + 1 * (j 1).val = (j 1).val; omega
  have e2 : ((((cfg0.win 1).blk t).view.emb j) 2).val = (j 2).val := by
    show win0_1.index t (2 : Fin 3) * 2048 + 1 * (j 2).val = (j 2).val; omega
  unfold blockPool poolB rawG pool poolAt
  have er : (⟨((((cfg0.win 1).blk t).view.emb j) 1).val, ((((cfg0.win 1).blk t).view.emb j) 1).isLt⟩ : Fin 14) = ⟨(j 1).val, (j 1).isLt⟩ := Fin.ext e1
  have ec : (⟨((((cfg0.win 1).blk t).view.emb j) 2).val, ((((cfg0.win 1).blk t).view.emb j) 2).isLt⟩ : Fin 2048) = ⟨(j 2).val, (j 2).isLt⟩ := Fin.ext e2
  have eb : (⟨((((cfg0.win 1).blk t).view.emb j) 0).val, ((((cfg0.win 1).blk t).view.emb j) 0).isLt⟩ : Fin 64) = ⟨t.val, ht⟩ := Fin.ext e0
  rw [er, ec, eb]
  refine Finset.sup_congr rfl fun p _ => ?_
  exact iblk_apply m c t _ p.1 p.2 ht

/-- An index of the raw array is in point `t`'s block iff each coordinate is in the block's range on its axis. -/
theorem mem_blk (t : Fin cfg0.N) (i : S64x14x2048.Idx) :
    i ∈ ((cfg0.win 1).blk t).view.set ↔ ∀ a : Fin 3, win0_1.index t a * S1x14x2048.size a ≤ (i a).val ∧ (i a).val < win0_1.index t a * S1x14x2048.size a + S1x14x2048.size a := by
  show i ∈ ((View.whole main_v0).slice (win0_1.rect t)).set ↔ _
  rw [View.set_slice_whole, Rect.mem_set_unit]
  exact Iff.rfl

/-- THE RAW ARRAY after the region: every window's maxima of the input. -/
theorem final (c : Dev nD) : (dats m 0 c).arrAt 1 cfg0.N = rawG (V m c main_arg0) :=
  (dats m 0 c).arrAt_eq_of_cover 1 (rawG (V m c main_arg0)) (fun t _ => flushed_eq m c t) fun i => by
    have hi0 : (i 0).val < 64 := (i 0).isLt
    have hi1 : (i 1).val < 14 := (i 1).isLt
    have hi2 : (i 2).val < 2048 := (i 2).isLt
    refine ⟨⟨(i 0).val, Nat.lt_of_lt_of_eq hi0 N_0.symm⟩, flush0_1 _, ?_⟩
    obtain ⟨-, -, -, -, b0, b1, b2⟩ := idx_facts ⟨(i 0).val, Nat.lt_of_lt_of_eq hi0 N_0.symm⟩
    have b0 : win0_1.index ⟨(i 0).val, Nat.lt_of_lt_of_eq hi0 N_0.symm⟩ (0 : Fin 3) = (i 0).val := b0
    rw [mem_blk]
    intro a
    match a with
    | ⟨0, _⟩ => show win0_1.index _ (0 : Fin 3) * 1 ≤ (i 0).val ∧ (i 0).val < win0_1.index _ (0 : Fin 3) * 1 + 1; rw [b0]; omega
    | ⟨1, _⟩ => show win0_1.index _ (1 : Fin 3) * 14 ≤ (i 1).val ∧ (i 1).val < win0_1.index _ (1 : Fin 3) * 14 + 14; rw [b1]; omega
    | ⟨2, _⟩ => show win0_1.index _ (2 : Fin 3) * 2048 ≤ (i 2).val ∧ (i 2).val < win0_1.index _ (2 : Fin 3) * 2048 + 2048; rw [b2]; omega

end Cert.Rmac.K

end
-- ==== Proof.KTail.lean ====
import proofs.«140447_j87411174408226_2_alg».proof.Proof.Gen.KernelIdeal
import proofs.«140447_j87411174408226_2_alg».proof.Proof.Spec
import Idealize.ShloMosaic.Lib.Pipeline.Value
import Idealize.ShloMosaic.PureOps.Ideal.Laws
import Idealize.ShloMosaic.Lib.ValueIdx

/-! The host operations after the kernel: from the array of window maxima to the pooled descriptor.

The array `raw` of shape `[64, 14, 2048]` holds at `(b, r, c)` the maximum of window `r`.  The program
squares it, sums the squares along the channels from the zero word, takes the square root, stretches
the root back over the channels and divides: at `(b, r, c)` that is the normalized vector of row
`(b, r)` at channel `c` (`normRow_apply`).  It then sums along the windows from the zero word:
at `(b, c)` that is the sum over the fourteen windows of the normalized vectors (`tailFn_apply`). -/

noncomputable section

namespace Cert.Rmac.K

open Cert.KernelIdeal Cert.KernelIdeal.Gen Idealize.ShloMosaic Idealize.ShloMosaic.ValueIdx

/-- The rows of `raw` divided by their Euclidean norms over the channels, as the program computes it. -/
def normRow (raw : S64x14x2048.Idx → EReal) : S64x14x2048.Idx → EReal :=
  Host.divf (F := Ideal) (φ := .f32) raw
    (broadcastInDim S64x14x2048 ![0, 1, 2] bcast_S64x14x1_S64x14x2048_0_1_2
      (Host.sqrt (F := Ideal) (φ := .f32)
        (broadcastInDim S64x14x1 ![0, 1] bcast_S64x14_S64x14x1_0_1
          (Host.reduceAdd (F := Ideal) (φ := .f32) (mulf (F := Ideal) (φ := .f32) raw raw)
            (constant (F := Ideal) S_ .f32 0x00000000#32) reducesTo_S64x14x2048_S64x14_d2 h_S_))))

/-- The host operations after the kernel, composed in the program's order: the rows normalized, then
    summed along the windows from the zero word. -/
def tailFn (raw : S64x14x2048.Idx → EReal) : S64x2048.Idx → EReal :=
  Host.reduceAdd (F := Ideal) (φ := .f32)
    (Host.divf (F := Ideal) (φ := .f32) raw
      (broadcastInDim S64x14x2048 ![0, 1, 2] bcast_S64x14x1_S64x14x2048_0_1_2
        (Host.sqrt (F := Ideal) (φ := .f32)
          (broadcastInDim S64x14x1 ![0, 1] bcast_S64x14_S64x14x1_0_1
            (Host.reduceAdd (F := Ideal) (φ := .f32) (mulf (F := Ideal) (φ := .f32) raw raw)
              (constant (F := Ideal) S_ .f32 0x00000000#32) reducesTo_S64x14x2048_S64x14_d2 h_S_)))))
    (constant (F := Ideal) S_ .f32 0x00000000#32) reducesTo_S64x14x2048_S64x2048_d1 h_S_

/-- The normalized rows at a point: row `(b, r)` of `raw` divided by the square root of the sum of its
    squares, at channel `c`. -/
theorem normRow_apply (raw : S64x14x2048.Idx → EReal) (b : Fin 64) (r : Fin 14) (c : Fin 2048) :
    normRow raw (ix3 b r c) = normed (fun k => raw (ix3 b r k)) c := by
  unfold normRow
  show Ideal.div (raw (ix3 b r c))
    (broadcastInDim (s := S64x14x1) S64x14x2048 ![0, 1, 2] bcast_S64x14x1_S64x14x2048_0_1_2 _ (ix3 b r c)) = _
  rw [broadcastInDim_apply ![0, 1, 2] bcast_S64x14x1_S64x14x2048_0_1_2 _ (ix3 b r c) (ix3 b r 0) (fun a => match a with
      | ⟨0, _⟩ => by show b.val = if (64 : Nat) = 1 then 0 else b.val; rw [if_neg (by decide)]
      | ⟨1, _⟩ => by show r.val = if (14 : Nat) = 1 then 0 else r.val; rw [if_neg (by decide)]
      | ⟨2, _⟩ => by show 0 = if (1 : Nat) = 1 then 0 else c.val; rw [if_pos rfl])]
  show Ideal.div (raw (ix3 b r c))
    (Ideal.sqrt (broadcastInDim (s := S64x14) S64x14x1 ![0, 1] bcast_S64x14_S64x14x1_0_1 _ (ix3 b r 0))) = _
  rw [broadcastInDim_apply ![0, 1] bcast_S64x14_S64x14x1_0_1 _ (ix3 b r 0) (ix2 b r) (fun a => match a with
      | ⟨0, _⟩ => by show b.val = if (64 : Nat) = 1 then 0 else b.val; rw [if_neg (by decide)]
      | ⟨1, _⟩ => by show r.val = if (14 : Nat) = 1 then 0 else r.val; rw [if_neg (by decide)])]
  simp only [Host.reduceAdd, Ideal.hostReduceAdd_def]
  rw [Ideal.hostReduceAdd_single reducesTo_S64x14x2048_S64x14_d2 (by decide)]
  unfold normed
  refine congrArg (fun z => Ideal.div (raw (ix3 b r c)) (Ideal.sqrt z)) ?_
  refine congrArg₂ (· + ·) Ideal.ofBits_zero_f32 (Finset.sum_congr rfl fun k _ => ?_)
  show raw _ * raw _ = _
  have hk : (Shape.Reduces.lift (s := S64x14x2048) (a := 2) (t := S64x14) (by decide) (ix2 b r) k) = ix3 b r k :=
    funext fun a => Fin.ext (by match a with | ⟨0, _⟩ => rfl | ⟨1, _⟩ => rfl | ⟨2, _⟩ => rfl)
  rw [hk]
  rfl

/-- The host operations after the kernel at a point: the sum over the fourteen windows of the
    normalized rows (the sum along the windows starts from the zero word, which adds nothing). -/
theorem tailFn_apply (raw : S64x14x2048.Idx → EReal) (b : Fin 64) (c : Fin 2048) :
    tailFn raw (ix2 b c) = ∑ r : Fin 14, Cert.Rmac.normed (fun k => raw (ix3 b r k)) c := by
  show Host.reduceAdd (F := Ideal) (φ := .f32) (normRow raw)
    (constant (F := Ideal) S_ .f32 0x00000000#32) reducesTo_S64x14x2048_S64x2048_d1 h_S_ (ix2 b c) = _
  simp only [Host.reduceAdd, Ideal.hostReduceAdd_def]
  rw [Ideal.hostReduceAdd_single reducesTo_S64x14x2048_S64x2048_d1 (by decide)]
  refine (congrArg₂ (· + ·) Ideal.ofBits_zero_f32 (Finset.sum_congr rfl fun r _ => ?_)).trans (zero_add _)
  have hr : (Shape.Reduces.lift (s := S64x14x2048) (a := 1) (t := S64x2048) (by decide) (ix2 b c) r) = ix3 b r c :=
    funext fun a => Fin.ext (by match a with | ⟨0, _⟩ => rfl | ⟨1, _⟩ => rfl | ⟨2, _⟩ => rfl)
  rw [hr]
  exact normRow_apply raw b r c

end Cert.Rmac.K

end
-- ==== Proof.LibTypedRef.lean ====
import Idealize.ShloMosaic.Lib.StableHlo

/-! A typed reference's transports cancel.

A host operation of a module-local function is stated over typed references: its function is applied to the operands'
contents transported from the buffers' types to the values' types (`ofBuf`) and its result is transported back (`toBuf`).
Both are casts along the same equation of types, so going there and back is the identity. -/

namespace Cert.Rmac

open Idealize.ShloMosaic Idealize.ShloMosaic.StableHlo

variable {sig : RefSig} {Val : EltTy → Type} {T : BufTy}

/-- Contents transported to a typed reference's buffer type and back are the contents. -/
theorem ofBuf_toBuf (x : TRef sig T) (v : T.Contents Val) : x.ofBuf (x.toBuf v) = v := by
  obtain ⟨r, h, _, _⟩ := x
  subst h
  rfl

/-- Contents of the buffer transported to the value's type and back are the contents. -/
theorem toBuf_ofBuf (x : TRef sig T) (v : x.ref.ty.Contents Val) : x.toBuf (x.ofBuf v) = v := by
  obtain ⟨r, h, _, _⟩ := x
  subst h
  rfl

end Cert.Rmac
-- ==== Proof.KRun.lean ====
import proofs.«140447_j87411174408226_2_alg».proof.Proof.KArray
import proofs.«140447_j87411174408226_2_alg».proof.Proof.KTail
import proofs.«140447_j87411174408226_2_alg».proof.Proof.LibTypedRef
import Idealize.ShloMosaic.Lib.StableHlo.Run

/-! The kernel's program, run: its result is the pooled descriptor of its argument.

After the region the raw array holds every window's maxima; the host operations that follow divide each window's channel
vector by its Euclidean norm and add the quotients over the windows. -/

set_option maxRecDepth 16384

noncomputable section

namespace Cert.Rmac.K

open Cert.KernelIdeal Cert.KernelIdeal.Gen Cert.KernelIdeal.GenP
open Idealize.ShloMosaic Idealize.ShloMosaic.TcCoe Idealize.ShloMosaic.ValueIdx Idealize.ShloMosaic.StableHlo
open Idealize.SL.Sem
open Idealize.ShloMosaic.Pipeline (Dat)

variable (m : (ℓ : Loc nD τ sig) → Buf (Elt Ideal) ℓ) (ρ : Dev nD → PrngReg)

/-- The host operations after the region, applied to the raw array the region left: the transports between a buffer's
    type and its value's type are identities, and what is left is `tailFn`. -/
theorem tail_term (c : Dev nD) :
    Pipeline.afterTail₀ cfgs (dats m) 0 (V0 m) [hostOps1, hostOps1_1] c main_v4 = tailFn ((dats m 0 c).arrAt 1 cfg0.N) := by
  unfold Pipeline.afterTail₀
  simp only [hostOps1, hostOps1_1, List.flatten_cons, List.flatten_nil, List.append_nil, List.cons_append, List.nil_append]
  after_results
  dsimp only
  have hA : Pipeline.withArrays (cfgs 0).spec c (V0 m c) (fun w => (dats m 0 c).arrAt w (cfgs 0).N) (Proc.devRef .tc main_v0)
      = (dats m 0 c).arrAt 1 cfg0.N :=
    Pipeline.withArrays_arr spec0 launch0.win.arr_inj c _ _ 1
  rw [hA]
  generalize (dats m 0 c).arrAt 1 cfg0.N = A
  have o0 : ∀ (h1 : main_v0.ty = (⟨S64x14x2048, .f32⟩ : BufTy)) (h2 : main_v0.space ≠ .host) (h3 : main_v0.isScoped = false)
      (w : main_v0.ty.Contents (Elt Ideal)), (TRef.of (T := ⟨S64x14x2048, .f32⟩) main_v0 h1 h2 h3).ofBuf w = w :=
    fun _ _ _ _ => rfl
  have t1 : ∀ (h1 : main_v1.ty = (⟨S64x14x1, .f32⟩ : BufTy)) (h2 : main_v1.space ≠ .host) (h3 : main_v1.isScoped = false)
      (w : (⟨S64x14x1, .f32⟩ : BufTy).Contents (Elt Ideal)), (TRef.of (T := ⟨S64x14x1, .f32⟩) main_v1 h1 h2 h3).toBuf w = w :=
    fun _ _ _ _ => rfl
  simp only [ofBuf_toBuf, o0, t1]
  rfl

/-- THE RUN, READ: the kernel's program ends with the pooled descriptor of its argument in its result, the argument unchanged. -/
theorem run : θ_run defs (onTc (τ := τ) (main (F := Ideal))) ⟨m, fun _ => 0, ρ⟩ fun r => ∀ c : Dev nD,
      r.2.mem ((c.tc : Thread nD τ).loc main_v4) = G (m ((c.tc : Thread nD τ).loc main_arg0))
      ∧ r.2.mem ((c.tc : Thread nD τ).loc main_arg0) = m ((c.tc : Thread nD τ).loc main_arg0) :=
  (θ_run defs _ _).mono (fun r h c =>
    ⟨((h c).2 main_v4 (by decide)).trans ((tail_term m c).trans (by
        rw [final m c, V_main_arg0]
        generalize m ((c : Thread nD τ).loc main_arg0) = x
        funext i
        obtain ⟨b, q, rfl⟩ : ∃ (b : Fin 64) (q : Fin 2048), i = ix2 b q := ⟨i 0, i 1, eq_ix2 i⟩
        rw [tailFn_apply]
        rfl)),
     ((h c).1 0).trans (((dats m 0 c).arrAt_in 0 rfl _).trans ((A_eq m c 0).trans (V_main_arg0 m c)))⟩)
    (run_main m ρ)

end Cert.Rmac.K

end
-- ==== Proof.RefPool.lean ====
import proofs.«140447_j87411174408226_2_alg».proof.Proof.Spec
import Idealize.ShloMosaic.Lib.ValueIdx
import Idealize.ShloMosaic.Lib.Pipeline.Value
import Idealize.ShloMosaic.PureOps.Ideal.Laws

/-! The maximum of a square block of a 14 × 14 feature map, as a reduction reads it.

A reduction with the body `max`, started from minus infinity, over the last two axes of the
`n × n` block cut from the map at a corner is the supremum of the map over the window of side `n`
at that corner: `reduce_max_block`. -/

noncomputable section

namespace Cert.Rmac.Ref

open Idealize.ShloMosaic Idealize.ShloMosaic.ValueIdx Idealize.ShloMosaic.StableHlo

/-- The ideal value of the word `0xFF800000` (minus infinity) is the bottom of the extended reals. -/
theorem ofBits_negInf : Ideal.ofBits .f32 0xFF800000#32 = (⊥ : EReal) := by
  simp [Ideal.ofBits, Ideal.ieee]

/-- Dropping the last two of four axes keeps the first two coordinates. -/
theorem drop_val0 {n : Nat} (hr : (⟨4, ![64, 2048, n, n]⟩ : Shape).ReducesTo [2, 3] ⟨2, ![64, 2048]⟩)
    (i : (⟨4, ![64, 2048, n, n]⟩ : Shape).Idx) : (hr.drop i 0).val = (i 0).val := rfl

theorem drop_val1 {n : Nat} (hr : (⟨4, ![64, 2048, n, n]⟩ : Shape).ReducesTo [2, 3] ⟨2, ![64, 2048]⟩)
    (i : (⟨4, ![64, 2048, n, n]⟩ : Shape).Idx) : (hr.drop i 1).val = (i 1).val := rfl

/-- A maximum-reduction, started from minus infinity, over the last two axes of the `n × n` block of
    `x` at the corner `(oh, ow)` is the supremum of `x` over the window of side `n` at that corner.

    Both sides are suprema of the same set of values: a block index `(b, c, h, w)` reads `x` at the
    window position `(oh + h, ow + w)`, and a window position `(p, q)` is read by the block index
    `(b, c, p - oh, q - ow)`. -/
theorem reduce_max_block (n oh ow : Nat)
    (x : (⟨4, ![64, 2048, 14, 14]⟩ : Shape).Idx → EReal)
    (hs : (⟨4, ![64, 2048, 14, 14]⟩ : Shape).Slices ![0, 0, oh, ow] ⟨4, ![64, 2048, n, n]⟩)
    (hr : (⟨4, ![64, 2048, n, n]⟩ : Shape).ReducesTo [2, 3] ⟨2, ![64, 2048]⟩)
    (hu : 0 < (⟨0, ![]⟩ : Shape).numel) (b : Fin 64) (c : Fin 2048) :
    Host.reduce (FloatOps.maximumf (F := Ideal) (φ := .f32))
      (extractStridedSlice ⟨4, ![64, 2048, n, n]⟩ ![0, 0, oh, ow] x hs)
      (constant (F := Ideal) ⟨0, ![]⟩ .f32 0xFF800000#32) hr hu (ix2 b c) = poolAt oh ow n x b c := by
  have hoh : oh + n ≤ 14 := hs.2 2
  have how : ow + n ≤ 14 := hs.2 3
  rw [Host.reduce_eq_fold]
  show Finset.fold max (Ideal.ofBits .f32 0xFF800000#32)
      (extractStridedSlice ⟨4, ![64, 2048, n, n]⟩ ![0, 0, oh, ow] x hs)
      (Finset.univ.filter fun i => hr.drop i = ix2 b c) = _
  rw [ofBits_negInf]
  show (Finset.univ.filter fun i => hr.drop i = ix2 b c).sup
      (extractStridedSlice ⟨4, ![64, 2048, n, n]⟩ ![0, 0, oh, ow] x hs)
    = (window oh ow n).sup fun p => x (ix4 b c p.1 p.2)
  apply le_antisymm
  · -- every block index that drops to `(b, c)` reads a window position
    refine Finset.sup_le fun i hi => ?_
    have hd : hr.drop i = ix2 b c := (Finset.mem_filter.1 hi).2
    have h0 : (i 0).val = b.val := by
      rw [← drop_val0 hr i, hd]
    have h1 : (i 1).val = c.val := by
      rw [← drop_val1 hr i, hd]
    have h2 : (i 2).val < n := (i 2).isLt
    have h3 : (i 3).val < n := (i 3).isLt
    have hread : extractStridedSlice ⟨4, ![64, 2048, n, n]⟩ ![0, 0, oh, ow] x hs i
        = x (ix4 b c ⟨oh + (i 2).val, by omega⟩ ⟨ow + (i 3).val, by omega⟩) :=
      extractStridedSlice_apply ![0, 0, oh, ow] x hs i _ (fun a => match a with
        | ⟨0, _⟩ => by show b.val = 0 + (i 0).val; omega
        | ⟨1, _⟩ => by show c.val = 0 + (i 1).val; omega
        | ⟨2, _⟩ => by show oh + (i 2).val = oh + (i 2).val; rfl
        | ⟨3, _⟩ => by show ow + (i 3).val = ow + (i 3).val; rfl)
    rw [hread]
    refine Finset.le_sup (f := fun p : Fin 14 × Fin 14 => x (ix4 b c p.1 p.2))
      (b := (⟨oh + (i 2).val, by omega⟩, ⟨ow + (i 3).val, by omega⟩)) ?_
    refine Finset.mem_filter.2 ⟨Finset.mem_univ _, ?_⟩
    show oh ≤ oh + (i 2).val ∧ oh + (i 2).val < oh + n ∧ ow ≤ ow + (i 3).val ∧ ow + (i 3).val < ow + n
    omega
  · -- every window position is read by a block index that drops to `(b, c)`
    refine Finset.sup_le fun p hp => ?_
    have hw : oh ≤ p.1.val ∧ p.1.val < oh + n ∧ ow ≤ p.2.val ∧ p.2.val < ow + n :=
      (Finset.mem_filter.1 hp).2
    let i : (⟨4, ![64, 2048, n, n]⟩ : Shape).Idx :=
      ix4 b c ⟨p.1.val - oh, by omega⟩ ⟨p.2.val - ow, by omega⟩
    have hread : extractStridedSlice ⟨4, ![64, 2048, n, n]⟩ ![0, 0, oh, ow] x hs i
        = x (ix4 b c p.1 p.2) :=
      extractStridedSlice_apply ![0, 0, oh, ow] x hs i _ (fun a => match a with
        | ⟨0, _⟩ => by show b.val = 0 + b.val; omega
        | ⟨1, _⟩ => by show c.val = 0 + c.val; omega
        | ⟨2, _⟩ => by show p.1.val = oh + (p.1.val - oh); omega
        | ⟨3, _⟩ => by show p.2.val = ow + (p.2.val - ow); omega)
    show x (ix4 b c p.1 p.2) ≤ _
    rw [← hread]
    refine Finset.le_sup (f := extractStridedSlice ⟨4, ![64, 2048, n, n]⟩ ![0, 0, oh, ow] x hs) ?_
    refine Finset.mem_filter.2 ⟨Finset.mem_univ _, ?_⟩
    funext a
    refine Fin.ext ?_
    match a with
    | ⟨0, _⟩ => exact drop_val0 hr i
    | ⟨1, _⟩ => exact drop_val1 hr i

end Cert.Rmac.Ref

end
-- ==== Proof.RefNorm.lean ====
import proofs.«140447_j87411174408226_2_alg».proof.Proof.RefPool

/-! Division of a `[64, 2048]` array by the Euclidean norm of its rows, as the program computes it
(square, sum along the channels from the zero word, square root, stretch back, divide), read at a
point: `quot_norm`; with the block maximum of `RefPool` under it, one window's quotient:
`window_quot`. -/

noncomputable section

namespace Cert.Rmac.Ref

open Idealize.ShloMosaic Idealize.ShloMosaic.ValueIdx Idealize.ShloMosaic.StableHlo

/-- A vector over `[64, 2048]` divided by the square root of the sum of its squares along the second
    axis (the sum started from the zero word, the root stretched back over the second axis), read at
    `(b, c)`: the normalized channel vector of row `b` at channel `c`. -/
theorem quot_norm (v : (⟨2, ![64, 2048]⟩ : Shape).Idx → EReal)
    (hred : (⟨2, ![64, 2048]⟩ : Shape).ReducesTo [1] ⟨1, ![64]⟩)
    (hu : 0 < (⟨0, ![]⟩ : Shape).numel)
    (hb1 : (⟨1, ![64]⟩ : Shape).BroadcastsInDim ⟨2, ![64, 1]⟩ (![0] : Fin 1 → Fin 2))
    (hb2 : (⟨2, ![64, 1]⟩ : Shape).BroadcastsInDim ⟨2, ![64, 2048]⟩ (![0, 1] : Fin 2 → Fin 2))
    (b : Fin 64) (c : Fin 2048) :
    Host.divf (F := Ideal) (φ := .f32) v
      (broadcastInDim ⟨2, ![64, 2048]⟩ ![0, 1] hb2
        (Host.sqrt (F := Ideal) (φ := .f32)
          (broadcastInDim ⟨2, ![64, 1]⟩ ![0] hb1
            (Host.reduceAdd (F := Ideal) (φ := .f32) (mulf (F := Ideal) (φ := .f32) v v)
              (constant (F := Ideal) ⟨0, ![]⟩ .f32 0x00000000#32) hred hu))))
      (ix2 b c)
    = normed (fun k => v (ix2 b k)) c := by
  show Ideal.div (v (ix2 b c)) (broadcastInDim (s := ⟨2, ![64, 1]⟩) ⟨2, ![64, 2048]⟩ ![0, 1] hb2 _ (ix2 b c)) = _
  rw [broadcastInDim_apply ![0, 1] hb2 _ (ix2 b c) (ix2 b 0) (fun a => match a with
      | ⟨0, _⟩ => by show b.val = if (64 : Nat) = 1 then 0 else b.val; rw [if_neg (by decide)]
      | ⟨1, _⟩ => by show 0 = if (1 : Nat) = 1 then 0 else c.val; rw [if_pos rfl])]
  show Ideal.div (v (ix2 b c)) (Ideal.sqrt (broadcastInDim (s := ⟨1, ![64]⟩) ⟨2, ![64, 1]⟩ ![0] hb1 _ (ix2 b 0))) = _
  rw [broadcastInDim_apply ![0] hb1 _ (ix2 b 0) (ix1 b) (fun a => match a with
      | ⟨0, _⟩ => by show b.val = if (64 : Nat) = 1 then 0 else b.val; rw [if_neg (by decide)])]
  simp only [Host.reduceAdd, Ideal.hostReduceAdd_def]
  rw [Ideal.hostReduceAdd_single hred (by decide)]
  unfold normed
  refine congrArg (fun z => Ideal.div (v (ix2 b c)) (Ideal.sqrt z)) ?_
  refine congrArg₂ (· + ·) Ideal.ofBits_zero_f32 (Finset.sum_congr rfl fun k _ => ?_)
  show v _ * v _ = _
  have hk : (Shape.Reduces.lift (s := ⟨2, ![64, 2048]⟩) (a := 1) (t := ⟨1, ![64]⟩) (by decide) (ix1 b) k) = ix2 b k :=
    funext fun a => Fin.ext (by match a with | ⟨0, _⟩ => rfl | ⟨1, _⟩ => rfl)
  rw [hk]
  rfl

/-- One window's quotient: the block maxima divided by their Euclidean norm over the channels, read at
    `(b, c)`, is the normalized vector of window maxima of batch entry `b` at channel `c`. -/
theorem window_quot (n oh ow : Nat)
    (x : (⟨4, ![64, 2048, 14, 14]⟩ : Shape).Idx → EReal)
    (hs : (⟨4, ![64, 2048, 14, 14]⟩ : Shape).Slices ![0, 0, oh, ow] ⟨4, ![64, 2048, n, n]⟩)
    (hr : (⟨4, ![64, 2048, n, n]⟩ : Shape).ReducesTo [2, 3] ⟨2, ![64, 2048]⟩)
    (hred : (⟨2, ![64, 2048]⟩ : Shape).ReducesTo [1] ⟨1, ![64]⟩)
    (hu : 0 < (⟨0, ![]⟩ : Shape).numel)
    (hb1 : (⟨1, ![64]⟩ : Shape).BroadcastsInDim ⟨2, ![64, 1]⟩ (![0] : Fin 1 → Fin 2))
    (hb2 : (⟨2, ![64, 1]⟩ : Shape).BroadcastsInDim ⟨2, ![64, 2048]⟩ (![0, 1] : Fin 2 → Fin 2))
    (b : Fin 64) (c : Fin 2048) :
    Host.divf (F := Ideal) (φ := .f32)
      (Host.reduce (FloatOps.maximumf (F := Ideal) (φ := .f32))
        (extractStridedSlice ⟨4, ![64, 2048, n, n]⟩ ![0, 0, oh, ow] x hs)
        (constant (F := Ideal) ⟨0, ![]⟩ .f32 0xFF800000#32) hr hu)
      (broadcastInDim ⟨2, ![64, 2048]⟩ ![0, 1] hb2
        (Host.sqrt (F := Ideal) (φ := .f32)
          (broadcastInDim ⟨2, ![64, 1]⟩ ![0] hb1
            (Host.reduceAdd (F := Ideal) (φ := .f32)
              (mulf (F := Ideal) (φ := .f32)
                (Host.reduce (FloatOps.maximumf (F := Ideal) (φ := .f32))
                  (extractStridedSlice ⟨4, ![64, 2048, n, n]⟩ ![0, 0, oh, ow] x hs)
                  (constant (F := Ideal) ⟨0, ![]⟩ .f32 0xFF800000#32) hr hu)
                (Host.reduce (FloatOps.maximumf (F := Ideal) (φ := .f32))
                  (extractStridedSlice ⟨4, ![64, 2048, n, n]⟩ ![0, 0, oh, ow] x hs)
                  (constant (F := Ideal) ⟨0, ![]⟩ .f32 0xFF800000#32) hr hu))
              (constant (F := Ideal) ⟨0, ![]⟩ .f32 0x00000000#32) hred hu))))
      (ix2 b c)
    = normed (fun k => poolAt oh ow n x b k) c := by
  rw [quot_norm]
  simp only [reduce_max_block]

/-- A sum over fourteen terms, written out from the left. -/
theorem sum_fourteen {M : Type*} [AddCommMonoid M] (f : Fin 14 → M) :
    ∑ r : Fin 14, f r
      = f 0 + f 1 + f 2 + f 3 + f 4 + f 5 + f 6 + f 7 + f 8 + f 9 + f 10 + f 11 + f 12 + f 13 := by
  simp only [Fin.sum_univ_castSucc, Fin.sum_univ_zero, zero_add]
  rfl

end Cert.Rmac.Ref

end
-- ==== Proof.RefValue.lean ====
import proofs.«140447_j87411174408226_2_alg».proof.Proof.RefNorm
import proofs.«140447_j87411174408226_2_alg».proof.Proof.RefReadP

/-! The reference program's value is the pooled descriptor.

For each of the fourteen windows the program cuts the block, reduces it with `max`, and divides the
maxima by their Euclidean norm over the channels: `window_quot` reads that quotient as the normalized
vector of window maxima (`quot_0` … `quot_13`, the windows in the program's order, which is the
order of `winH`, `winW`, `winN`).  The program adds the fourteen quotients from the left, which is the
sum over the windows written out: `value`. -/

noncomputable section

namespace Cert.Rmac.Ref

open Idealize.ShloMosaic Idealize.ShloMosaic.ValueIdx Idealize.ShloMosaic.StableHlo

open Cert.ReferenceIdeal Cert.ReferenceIdeal.Gen

/-- Window 0: side 13 at the corner (0, 0). -/
theorem quot_0 (x0 : (⟨S64x2048x14x14, .f32⟩ : BufTy).Contents (Elt Ideal)) (b : Fin 64) (c : Fin 2048) :
    ReadP.val_main_v4 (F := Ideal) x0 (ix2 b c) = normed (fun k => pool x0 0 b k) c := by
  unfold ReadP.val_main_v4 ReadP.val_main_v3 ReadP.val_main_v2 ReadP.val_main_call0_v2 ReadP.val_main_call0_v1
    ReadP.val_main_call0_v0 ReadP.val_main_call0_cst ReadP.val_main_v1 ReadP.val_main_v0 ReadP.val_main_cst
  exact window_quot 13 0 0 x0 _ _ _ _ _ _ b c

/-- Window 1: side 8 at the corner (0, 0). -/
theorem quot_1 (x0 : (⟨S64x2048x14x14, .f32⟩ : BufTy).Contents (Elt Ideal)) (b : Fin 64) (c : Fin 2048) :
    ReadP.val_main_v9 (F := Ideal) x0 (ix2 b c) = normed (fun k => pool x0 1 b k) c := by
  unfold ReadP.val_main_v9 ReadP.val_main_v8 ReadP.val_main_v7 ReadP.val_main_call1_v2 ReadP.val_main_call1_v1
    ReadP.val_main_call1_v0 ReadP.val_main_call1_cst ReadP.val_main_v6 ReadP.val_main_v5 ReadP.val_main_cst_0
  exact window_quot 8 0 0 x0 _ _ _ _ _ _ b c

/-- Window 2: side 8 at the corner (0, 2). -/
theorem quot_2 (x0 : (⟨S64x2048x14x14, .f32⟩ : BufTy).Contents (Elt Ideal)) (b : Fin 64) (c : Fin 2048) :
    ReadP.val_main_v15 (F := Ideal) x0 (ix2 b c) = normed (fun k => pool x0 2 b k) c := by
  unfold ReadP.val_main_v15 ReadP.val_main_v14 ReadP.val_main_v13 ReadP.val_main_call2_v2 ReadP.val_main_call2_v1
    ReadP.val_main_call2_v0 ReadP.val_main_call2_cst ReadP.val_main_v12 ReadP.val_main_v11 ReadP.val_main_cst_1
  exact window_quot 8 0 2 x0 _ _ _ _ _ _ b c

/-- Window 3: side 8 at the corner (2, 0). -/
theorem quot_3 (x0 : (⟨S64x2048x14x14, .f32⟩ : BufTy).Contents (Elt Ideal)) (b : Fin 64) (c : Fin 2048) :
    ReadP.val_main_v21 (F := Ideal) x0 (ix2 b c) = normed (fun k => pool x0 3 b k) c := by
  unfold ReadP.val_main_v21 ReadP.val_main_v20 ReadP.val_main_v19 ReadP.val_main_call3_v2 ReadP.val_main_call3_v1
    ReadP.val_main_call3_v0 ReadP.val_main_call3_cst ReadP.val_main_v18 ReadP.val_main_v17 ReadP.val_main_cst_2
  exact window_quot 8 2 0 x0 _ _ _ _ _ _ b c

/-- Window 4: side 8 at the corner (2, 2). -/
theorem quot_4 (x0 : (⟨S64x2048x14x14, .f32⟩ : BufTy).Contents (Elt Ideal)) (b : Fin 64) (c : Fin 2048) :
    ReadP.val_main_v27 (F := Ideal) x0 (ix2 b c) = normed (fun k => pool x0 4 b k) c := by
  unfold ReadP.val_main_v27 ReadP.val_main_v26 ReadP.val_main_v25 ReadP.val_main_call4_v2 ReadP.val_main_call4_v1
    ReadP.val_main_call4_v0 ReadP.val_main_call4_cst ReadP.val_main_v24 ReadP.val_main_v23 ReadP.val_main_cst_3
  exact window_quot 8 2 2 x0 _ _ _ _ _ _ b c

/-- Window 5: side 6 at the corner (0, 0). -/
theorem quot_5 (x0 : (⟨S64x2048x14x14, .f32⟩ : BufTy).Contents (Elt Ideal)) (b : Fin 64) (c : Fin 2048) :
    ReadP.val_main_v33 (F := Ideal) x0 (ix2 b c) = normed (fun k => pool x0 5 b k) c := by
  unfold ReadP.val_main_v33 ReadP.val_main_v32 ReadP.val_main_v31 ReadP.val_main_call5_v2 ReadP.val_main_call5_v1
    ReadP.val_main_call5_v0 ReadP.val_main_call5_cst ReadP.val_main_v30 ReadP.val_main_v29 ReadP.val_main_cst_4
  exact window_quot 6 0 0 x0 _ _ _ _ _ _ b c

/-- Window 6: side 6 at the corner (0, 2). -/
theorem quot_6 (x0 : (⟨S64x2048x14x14, .f32⟩ : BufTy).Contents (Elt Ideal)) (b : Fin 64) (c : Fin 2048) :
    ReadP.val_main_v39 (F := Ideal) x0 (ix2 b c) = normed (fun k => pool x0 6 b k) c := by
  unfold ReadP.val_main_v39 ReadP.val_main_v38 ReadP.val_main_v37 ReadP.val_main_call6_v2 ReadP.val_main_call6_v1
    ReadP.val_main_call6_v0 ReadP.val_main_call6_cst ReadP.val_main_v36 ReadP.val_main_v35 ReadP.val_main_cst_5
  exact window_quot 6 0 2 x0 _ _ _ _ _ _ b c

/-- Window 7: side 6 at the corner (0, 4). -/
theorem quot_7 (x0 : (⟨S64x2048x14x14, .f32⟩ : BufTy).Contents (Elt Ideal)) (b : Fin 64) (c : Fin 2048) :
    ReadP.val_main_v45 (F := Ideal) x0 (ix2 b c) = normed (fun k => pool x0 7 b k) c := by
  unfold ReadP.val_main_v45 ReadP.val_main_v44 ReadP.val_main_v43 ReadP.val_main_call7_v2 ReadP.val_main_call7_v1
    ReadP.val_main_call7_v0 ReadP.val_main_call7_cst ReadP.val_main_v42 ReadP.val_main_v41 ReadP.val_main_cst_6
  exact window_quot 6 0 4 x0 _ _ _ _ _ _ b c

/-- Window 8: side 6 at the corner (2, 0). -/
theorem quot_8 (x0 : (⟨S64x2048x14x14, .f32⟩ : BufTy).Contents (Elt Ideal)) (b : Fin 64) (c : Fin 2048) :
    ReadP.val_main_v51 (F := Ideal) x0 (ix2 b c) = normed (fun k => pool x0 8 b k) c := by
  unfold ReadP.val_main_v51 ReadP.val_main_v50 ReadP.val_main_v49 ReadP.val_main_call8_v2 ReadP.val_main_call8_v1
    ReadP.val_main_call8_v0 ReadP.val_main_call8_cst ReadP.val_main_v48 ReadP.val_main_v47 ReadP.val_main_cst_7
  exact window_quot 6 2 0 x0 _ _ _ _ _ _ b c

/-- Window 9: side 6 at the corner (2, 2). -/
theorem quot_9 (x0 : (⟨S64x2048x14x14, .f32⟩ : BufTy).Contents (Elt Ideal)) (b : Fin 64) (c : Fin 2048) :
    ReadP.val_main_v57 (F := Ideal) x0 (ix2 b c) = normed (fun k => pool x0 9 b k) c := by
  unfold ReadP.val_main_v57 ReadP.val_main_v56 ReadP.val_main_v55 ReadP.val_main_call9_v2 ReadP.val_main_call9_v1
    ReadP.val_main_call9_v0 ReadP.val_main_call9_cst ReadP.val_main_v54 ReadP.val_main_v53 ReadP.val_main_cst_8
  exact window_quot 6 2 2 x0 _ _ _ _ _ _ b c

/-- Window 10: side 6 at the corner (2, 4). -/
theorem quot_10 (x0 : (⟨S64x2048x14x14, .f32⟩ : BufTy).Contents (Elt Ideal)) (b : Fin 64) (c : Fin 2048) :
    ReadP.val_main_v63 (F := Ideal) x0 (ix2 b c) = normed (fun k => pool x0 10 b k) c := by
  unfold ReadP.val_main_v63 ReadP.val_main_v62 ReadP.val_main_v61 ReadP.val_main_call10_v2 ReadP.val_main_call10_v1
    ReadP.val_main_call10_v0 ReadP.val_main_call10_cst ReadP.val_main_v60 ReadP.val_main_v59 ReadP.val_main_cst_9
  exact window_quot 6 2 4 x0 _ _ _ _ _ _ b c

/-- Window 11: side 6 at the corner (4, 0). -/
theorem quot_11 (x0 : (⟨S64x2048x14x14, .f32⟩ : BufTy).Contents (Elt Ideal)) (b : Fin 64) (c : Fin 2048) :
    ReadP.val_main_v69 (F := Ideal) x0 (ix2 b c) = normed (fun k => pool x0 11 b k) c := by
  unfold ReadP.val_main_v69 ReadP.val_main_v68 ReadP.val_main_v67 ReadP.val_main_call11_v2 ReadP.val_main_call11_v1
    ReadP.val_main_call11_v0 ReadP.val_main_call11_cst ReadP.val_main_v66 ReadP.val_main_v65 ReadP.val_main_cst_10
  exact window_quot 6 4 0 x0 _ _ _ _ _ _ b c

/-- Window 12: side 6 at the corner (4, 2). -/
theorem quot_12 (x0 : (⟨S64x2048x14x14, .f32⟩ : BufTy).Contents (Elt Ideal)) (b : Fin 64) (c : Fin 2048) :
    ReadP.val_main_v75 (F := Ideal) x0 (ix2 b c) = normed (fun k => pool x0 12 b k) c := by
  unfold ReadP.val_main_v75 ReadP.val_main_v74 ReadP.val_main_v73 ReadP.val_main_call12_v2 ReadP.val_main_call12_v1
    ReadP.val_main_call12_v0 ReadP.val_main_call12_cst ReadP.val_main_v72 ReadP.val_main_v71 ReadP.val_main_cst_11
  exact window_quot 6 4 2 x0 _ _ _ _ _ _ b c

/-- Window 13: side 6 at the corner (4, 4). -/
theorem quot_13 (x0 : (⟨S64x2048x14x14, .f32⟩ : BufTy).Contents (Elt Ideal)) (b : Fin 64) (c : Fin 2048) :
    ReadP.val_main_v81 (F := Ideal) x0 (ix2 b c) = normed (fun k => pool x0 13 b k) c := by
  unfold ReadP.val_main_v81 ReadP.val_main_v80 ReadP.val_main_v79 ReadP.val_main_call13_v2 ReadP.val_main_call13_v1
    ReadP.val_main_call13_v0 ReadP.val_main_call13_cst ReadP.val_main_v78 ReadP.val_main_v77 ReadP.val_main_cst_12
  exact window_quot 6 4 4 x0 _ _ _ _ _ _ b c

/-- The reference program computes the pooled descriptor: the left-nested sum of the fourteen
    quotients is the sum over the fourteen windows. -/
theorem value (x0 : (⟨Cert.ReferenceIdeal.S64x2048x14x14, .f32⟩ : BufTy).Contents (Elt Ideal)) :
    Cert.ReferenceIdeal.ReadP.val_main_v82 (F := Ideal) x0 = Cert.Rmac.G x0 := by
  funext i
  obtain ⟨b, c, rfl⟩ : ∃ b c, i = ix2 b c := ⟨i 0, i 1, eq_ix2 i⟩
  show _ = ∑ r : Fin 14, normed (fun k => pool x0 r b k) c
  rw [sum_fourteen]
  simp only [ReadP.val_main_v82_apply, ReadP.val_main_v76_apply, ReadP.val_main_v70_apply, ReadP.val_main_v64_apply, ReadP.val_main_v58_apply, ReadP.val_main_v52_apply, ReadP.val_main_v46_apply, ReadP.val_main_v40_apply, ReadP.val_main_v34_apply, ReadP.val_main_v28_apply, ReadP.val_main_v22_apply, ReadP.val_main_v16_apply, ReadP.val_main_v10_apply,
    Ideal.addf_def, quot_0, quot_1, quot_2, quot_3, quot_4, quot_5, quot_6, quot_7, quot_8, quot_9, quot_10, quot_11, quot_12, quot_13]

end Cert.Rmac.Ref

end
-- ==== Proof.lean ====
/- The certificate's claims assembled.

   Both programs compute, for a batch of 14 × 14 feature maps, the maxima over fourteen square windows, divide each
   window's channel vector of maxima by its Euclidean norm and add the fourteen quotient vectors.  The kernel takes each
   window maximum in two steps (along the columns, then along the rows) for 128 channels at a time and leaves the
   normalization and the sum to host operations; the reference takes each maximum in one reduction and adds the quotients
   one after the other.  At the extended reals a maximum from `-∞` is a supremum, so the two-step and the one-step maximum
   are the same supremum over the window, and a sum of fourteen terms does not depend on how it is bracketed or on starting
   from zero: both results are the one function `Cert.Rmac.G` of the argument.  No finiteness of the input is used.

   The frames: each program terminates without a fault and leaves its argument unchanged — the kernel's two readings by the
   frame of the pipelined region around its host operations, the reference's by its run with the result dropped.  The ideal
   pass rewrote nothing, so there is nothing to preserve. -/
import proofs.«140447_j87411174408226_2_alg».proof.Defs
import proofs.«140447_j87411174408226_2_alg».proof.Proof.Gen.Kernel
import proofs.«140447_j87411174408226_2_alg».proof.Proof.Gen.KernelIdeal
import proofs.«140447_j87411174408226_2_alg».proof.Proof.Gen.ReferenceIdeal
import proofs.«140447_j87411174408226_2_alg».proof.Proof.Gen.Pre_finite_inputs
import proofs.«140447_j87411174408226_2_alg».proof.Proof.KFrameB
import proofs.«140447_j87411174408226_2_alg».proof.Proof.KRun
import proofs.«140447_j87411174408226_2_alg».proof.Proof.RefRunP
import proofs.«140447_j87411174408226_2_alg».proof.Proof.RefValue
import Idealize.ShloMosaic.Adequacy
import Idealize.ShloMosaic.Init

noncomputable section

namespace Cert.Proof

open Idealize.ShloMosaic Idealize.SL.Sem

/-- The word-level kernel terminates, faults nowhere and leaves its argument as it was. -/
theorem frame_kernel [Cert.Kernel.Facts] [Cert.Pre_finite_inputs.Facts] : Cert.frame_Kernel :=
  fun m ρ _ => Cert.Kernel.GenP.frame m ρ

/-- So does the idealized kernel. -/
theorem frame_kernelIdeal [Cert.KernelIdeal.Facts] [Cert.Pre_finite_inputs.Facts] : Cert.frame_KernelIdeal :=
  fun m ρ _ => Cert.KernelIdeal.GenP.frame m ρ

/-- And the reference: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.ValueP.run (F := Ideal) m ρ)

/-- The two idealized programs end with the same result: the pooled descriptor of the shared argument. -/
theorem algebraic [Cert.KernelIdeal.Facts] [Cert.ReferenceIdeal.Facts] [Cert.Pre_finite_inputs.Facts] :
    Cert.algebraic_KernelIdeal_ReferenceIdeal :=
  fun m ρ m' ρ' _ hagree =>
    ⟨fun c => Cert.Rmac.G (m ((c.tc : Thread Cert.KernelIdeal.nD Cert.KernelIdeal.τ).loc Cert.KernelIdeal.main_arg0)),
      Cert.Rmac.K.run m ρ,
      (θ_run Cert.ReferenceIdeal.defs _ _).mono (fun _ h c => ⟨by
          rw [(h c).1, Cert.ReferenceIdeal.ReadP.val_main_v82_eq, Cert.Rmac.Ref.value, hagree c], (h c).2⟩)
        (Cert.ReferenceIdeal.ValueP.run (F := Ideal) m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
